-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x320 : S_.BroadcastsInDim S100000x320 (![] : Fin 0 → Fin S100000x320.rank)
  reducesTo_S100000x320_S_d0_1 : S100000x320.ReducesTo [0, 1] S_
  h_S_ : 0 < S_.numel
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x320 .f32) (main_arg1 : IVec S2x1600000 32) (main_arg2 : IVec S100000 32) (main_arg3 : FVec F S320x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x320 .f32 := Host.absf main_arg0
  let main_cst : FVec F S_ .f32 := constant S_ .f32 0x7F800000#32
  let main_v1 : FVec F S100000x320 .f32 := broadcastInDim S100000x320 ![] bcast_S_S100000x320 main_cst
  let main_v2 : IVec S100000x320 1 := cmpf .olt main_v0 main_v1
  let main_c : IVec S_ 1 := constantI S_ 1 1#1
  let main_v3 : IVec S_ 1 := (fun x v => Host.reduce IntOp.andi x v reducesTo_S100000x320_S_d0_1 h_S_) main_v2 main_c
  let main_v4 : FVec F S320x128 .f32 := Host.absf main_arg3
  let main_cst_0 : FVec F S_ .f32 := constant S_ .f32 0x7F800000#32
  let main_v5 : FVec F S320x128 .f32 := broadcastInDim S320x128 ![] bcast_S_S320x128 main_cst_0
  let main_v6 : IVec S320x128 1 := cmpf .olt main_v4 main_v5
  let main_c_1 : IVec S_ 1 := constantI S_ 1 1#1
  let main_v7 : IVec S_ 1 := (fun x v => Host.reduce IntOp.andi x v reducesTo_S320x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S2000x320 : Shape := ⟨2, ![2000, 320]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S4000x128 : Shape := ⟨2, ![4000, 128]⟩
abbrev S4000x1 : Shape := ⟨2, ![4000, 1]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 81
  | .vmem => 32
  | .smem => 0
  | _ => 0

abbrev bufTy : (tb : Table) → Fin (tcTables nBuf tb) → BufTy
  | .hbm, ⟨0, _⟩ => ⟨S100000x320, .f32⟩
  | .hbm, ⟨1, _⟩ => ⟨S2x1600000, .i32⟩
  | .hbm, ⟨2, _⟩ => ⟨S100000, .i32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .f32⟩
  | .hbm, ⟨64, _⟩ => ⟨S512x128, .f32⟩
  | .hbm, ⟨65, _⟩ => ⟨S100000x1, .i32⟩
  | .hbm, ⟨66, _⟩ => ⟨S512x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S512, .f32⟩
  | .hbm, ⟨71, _⟩ => ⟨S100000x1, .i32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512x1, .f32⟩
  | .hbm, ⟨77, _⟩ => ⟨S512x128, .f32⟩
  | .hbm, ⟨78, _⟩ => ⟨S512x128, .f32⟩
  | .hbm, ⟨79, _⟩ => ⟨S1x2, .f32⟩
  | .hbm, ⟨80, _⟩ => ⟨S512x2, .f32⟩
  | .local _ .vmem, ⟨0, _⟩ => ⟨S2000x320, .f32⟩
  | .local _ .vmem, ⟨1, _⟩ => ⟨S2000x320, .f32⟩
  | .local _ .vmem, ⟨2, _⟩ => ⟨S320x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S512x128, .f32⟩
  | .local _ .vmem, ⟨29, _⟩ => ⟨S128x2, .f32⟩
  | .local _ .vmem, ⟨30, _⟩ => ⟨S1x2, .f32⟩
  | .local _ .vmem, ⟨31, _⟩ => ⟨S512x2, .f32⟩
  | _, _ => ⟨S100000x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x320_S2000x320_0_0 : ∀ a, (![0, 0] : Fin 2 → Nat) a + S2000x320.size a ≤ S2000x320.size a
  h_S2000x320 : 0 < S2000x320.numel
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  dot_S2000x320_S320x128_S2000x128_1_0_0_1_n_n_wf : DotDims.WF S2000x320 S320x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x320.size a ≤ S100000x320.size a
  hwx0_0 : ∀ i : grid0.Coords, EltTy.bits .f32 = 32 ∨ (Rect.block (s := S100000x320) S2000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x320_S320x128_S2000x128_1_0_0_1_n_n : DotDims S2000x320 S320x128 S2000x128 where
  lhsContracting := [1]
  rhsContracting := [0]
  lhsNonContracting := [0]
  rhsNonContracting := [1]
  lhsBatch := []
  rhsBatch := []
  wf := dot_S2000x320_S320x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S2000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v53) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x320 : Shape := ⟨2, ![100000, 320]⟩
abbrev S2x1600000 : Shape := ⟨2, ![2, 1600000]⟩
abbrev S100000 : Shape := ⟨1, ![100000]⟩
abbrev S320x128 : Shape := ⟨2, ![320, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 148
  | .vmem => 0
  | .smem => 0
  | _ => 0

abbrev hbmTy0_0 (i : Nat) : BufTy := match i % 128 with
  | 0 => ⟨S100000x320, .f32⟩
  | 1 => ⟨S2x1600000, .i32⟩
  | 2 => ⟨S100000, .i32⟩
  | 3 => ⟨S320x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x320, .f32⟩

abbrev hbmTy0_1 (i : Nat) : BufTy := match i % 128 with
  | 0 => ⟨S_, .f32⟩
  | 1 => ⟨S512x128, .f32⟩
  | 2 => ⟨S100000x1, .i32⟩
  | 3 => ⟨S512x128, .f32⟩
  | 4 => ⟨S_, .f32⟩
  | 5 => ⟨S100000, .f32⟩
  | 6 => ⟨S_, .f32⟩
  | 7 => ⟨S512, .f32⟩
  | 8 => ⟨S100000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x128, .f32⟩
  | 15 => ⟨S512x128, .f32⟩
  | 16 => ⟨S512x2, .f32⟩
  | 17 => ⟨S1x2, .f32⟩
  | 18 => ⟨S512x2, .f32⟩
  | 19 => ⟨S512x2, .f32⟩
  | _ => ⟨S100000x320, .f32⟩

abbrev hbmTy (i : Nat) : BufTy := match i / 128 with
  | 0 => hbmTy0_0 i
  | 1 => hbmTy0_1 i
  | _ => ⟨S100000x320, .f32⟩

abbrev bufTy : (tb : Table) → Fin (tcTables nBuf tb) → BufTy
  | .hbm, ⟨i, _⟩ => hbmTy i
  | _, _ => ⟨S100000x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S100000x320_S320x128_S100000x128_1_0_0_1_n_n_wf : DotDims.WF S100000x320 S320x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def dot_S100000x320_S320x128_S100000x128_1_0_0_1_n_n : DotDims S100000x320 S320x128 S100000x128 where
  lhsContracting := [1]
  rhsContracting := [0]
  lhsNonContracting := [0]
  rhsNonContracting := [1]
  lhsBatch := []
  rhsBatch := []
  wf := dot_S100000x320_S320x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The idealized kernel program's run with its result named.

  The program is five kernel regions among stretches of host operations. Its run is the run of those eleven segments from
  the launch memory; each boundary's buffer contents are a fold (a host stretch applies its operations, a region leaves
  its arrays at what its write-backs leave and every other buffer as it found it). The last boundary's contents `W11`
  are what every unscoped buffer holds in the final state — the arguments, which nothing writes, and also the result
  buffer, which is the fifth region's output array. This module states that: the same run as the frame's, with the
  result buffer read off the last boundary beside the arguments.
-/
import proofs.«151348_j40664750358926_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v55) = W11 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v55 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunValue

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.ScaledLayers.lean ====
/-
  The three dense stages of the graph network, each as ONE function of whole arrays on the extended reals.

  * `scaledProduct x w d`: the matrix product `x · w` with row `a` multiplied by the column entry `d[a, 0]`
    (node features projected, then pre-scaled by the node's inverse square-root degree);
  * `scaleBiasRelu a d b`: `max (a[p, q] · d[p, 0] + b[0, q], 0)` (the aggregated rows post-scaled by the same
    column, a bias row added, rectified);
  * `productBias p w b`: `(p · w)[g, o] + b[0, o]` (the final linear map with its bias row).

  A kernel that computes one of these a block of rows at a time computes the whole-array function: each is
  row-local, entry `(p, q)` reading only row `p` of the row-indexed operands.
-/
import Idealize.ShloMosaic.Lib.ValueIdx
import Idealize.ShloMosaic.PureOps.Ideal.Laws
import proofs.«151348_j40664750358926_2_alg».proof.Proof.LibPlainDot

noncomputable section

namespace Cert.GraphConv

open Idealize.ShloMosaic Idealize.ShloMosaic.ValueIdx Cert.Lib.PlainDot

/-- The product `x · w`, row `a` scaled by `d[a, 0]`. -/
def scaledProduct {M K N : ℕ} (x : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun j => rowsByCols x w j * d (ix2 (j 0) (0 : Fin 1))

theorem scaledProduct_apply {M K N : ℕ} (x : (⟨2, ![M, K]⟩ : Shape).Idx → EReal) (w : (⟨2, ![K, N]⟩ : Shape).Idx → EReal)
    (d : (⟨2, ![M, 1]⟩ : Shape).Idx → EReal) (j : (⟨2, ![M, N]⟩ : Shape).Idx) :
    scaledProduct x w d j = rowsByCols x w j * d (ix2 (j 0) (0 : Fin 1)) := rfl

/-- `max (a[p, q] · d[p, 0] + b[0, q], 0)`. -/
def scaleBiasRelu {M N : ℕ} (a : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => max (a j * d (ix2 (j 0) (0 : Fin 1)) + b (ix2 (0 : Fin 1) (j 1))) 0

theorem scaleBiasRelu_apply {M N : ℕ} (a : (⟨2, ![M, N]⟩ : Shape).Idx → EReal) (d : (⟨2, ![M, 1]⟩ : Shape).Idx → EReal)
    (b : (⟨2, ![1, N]⟩ : Shape).Idx → EReal) (j : (⟨2, ![M, N]⟩ : Shape).Idx) :
    scaleBiasRelu a d b j = max (a j * d (ix2 (j 0) (0 : Fin 1)) + b (ix2 (0 : Fin 1) (j 1))) 0 := rfl

/-- `(p · w)[g, o] + b[0, o]`. -/
def productBias {M K N : ℕ} (p : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => rowsByCols p w j + b (ix2 (0 : Fin 1) (j 1))

theorem productBias_apply {M K N : ℕ} (p : (⟨2, ![M, K]⟩ : Shape).Idx → EReal) (w : (⟨2, ![K, N]⟩ : Shape).Idx → EReal)
    (b : (⟨2, ![1, N]⟩ : Shape).Idx → EReal) (j : (⟨2, ![M, N]⟩ : Shape).Idx) :
    productBias p w b j = rowsByCols p w j + b (ix2 (0 : Fin 1) (j 1)) := rfl

end Cert.GraphConv

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.BlockRows0.lean ====
/-
  The first pipelined region (node features projected, rows pre-scaled) as one function of whole arrays.

  The region walks 50 blocks of 2000 rows. At point `t` it reads rows `2000 t … 2000 t + 1999` of the `[100000, 320]`
  features and of the `[100000, 1]` scale column, and the whole `[320, 128]` weight matrix, and writes the same rows of
  the output. Entry `(p, q)` of the written block is `(x · w)[p,q] · d[p,0]` of the blocks; a row of a product is the
  product of the row, so this is that expression of the arrays at row `2000 t + p`. The 50 blocks cover every row, so
  the output array after the region is `scaledProduct x w d`.
-/
import proofs.«151348_j40664750358926_2_alg».proof.Proof.Gen.KernelIdeal.Frame
import proofs.«151348_j40664750358926_2_alg».proof.Proof.ScaledLayers
import proofs.«151348_j40664750358926_2_alg».proof.Proof.LibKeepdimsColumn
import proofs.«151348_j40664750358926_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockRows

open Cert.KernelIdeal Cert.KernelIdeal.Gen Cert.GraphConv Cert.Lib.PlainDot
open Idealize.ShloMosaic Idealize.ShloMosaic.TcCoe Idealize.ShloMosaic.ValueIdx Idealize.SL.Sem
open Idealize.ShloMosaic.Pipeline (Dat)

/-- The offsets of a whole-block rectangle are all zero. -/
theorem hz0 : (![0, 0] : Fin 2 → Nat) = fun _ => 0 := funext fun a => by fin_cases a <;> rfl

/-- The body's payload at an index: entry `(p, q)` of the block is `(x · w)[p,q] · d[p,0]`. The operands' narrowing to
    the 16-bit format is the identity on the extended reals, and the product accumulates into zero. -/
theorem pay0_apply (x0 : Vec Ideal S2000x320 .f32) (x1 : Vec Ideal S320x128 .f32) (x2 : Vec Ideal S2000x1 .f32)
    (p : Fin 2000) (q : Fin 128) :
    k0_pay1 x0 x1 x2 (ix2 p q) = rowsByCols x0 x1 (ix2 p q) * x2 (ix2 p (0 : Fin 1)) := by
  unfold k0_pay1
  simp only [shapeCast_self]
  rw [mulf_apply, Cert.Gcn.Lib.broadcastTo_a1_ab_apply]
  refine congrArg (· * x2 (ix2 p (0 : Fin 1))) ?_
  refine (congrFun (matmul_zero_eq dot_S2000x320_S320x128_S2000x128_1_0_0_1_n_n rfl none _ _) (ix2 p q)).trans ?_
  rfl

/-- The printed index maps, decided over the 50 points: the row-indexed inputs' row-block index is the output's, which
    is the point's number; every column-block index is 0; the weights are block `(0, 0)`. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

section
variable (V : (c : Dev nD) → (b : Ref sig .tc) → Buf (Elt Ideal) ((c : Thread nD τ).loc b))

/-- The whole-array function of the region's three argument arrays as the region finds them. -/
abbrev G0 (c : Dev nD) : S100000x128.Idx → EReal :=
  scaledProduct (M := 100000) (K := 320) (N := 128) (V c (Pipeline.arrRef spec0 0)) (V c (Pipeline.arrRef spec0 1)) (V c (Pipeline.arrRef spec0 2))

/-- What point `t` writes back is block `t` of the whole-array function: row `p` of the left block and of the scale
    column's block are rows `2000 t + p` of their arrays, the right operand is read whole, and a row of a product is
    the product of the row. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S2000x320) hz0, View.ld_unit_zero (S := S320x128) hz0, View.ld_unit_zero (S := S2000x1) hz0]
  obtain ⟨e0, e1, e2, e3, e4, e5, e6, e7⟩ := idx_facts0 t
  refine funext fun (j : S2000x128.Idx) => ?_
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q)
    = G0 V c (((cfg0.win 3).blk t).view.emb (ix2 p q))
  refine (pay0_apply _ _ _ p q).trans ?_
  refine Eq.trans ?_ (scaledProduct_apply _ _ _ _).symm
  refine congrArg₂ (· * ·) ?_ ?_
  · refine rowsByCols_congr (M := 100000) (M' := 2000) (K := 320) (N := 128) (N' := 128) _ _ _ _ _ _ (fun k => ?_) (fun k => ?_)
    · show V c (Pipeline.arrRef spec0 0) (((cfg0.win 0).blk t).view.emb (ix2 p k)) = V c (Pipeline.arrRef spec0 0) _
      refine congrArg _ (funext fun a => Fin.ext ?_)
      match a with
      | ⟨0, _⟩ => show win0_0.index t (0 : Fin 2) * 2000 + 1 * p.val = win0_3.index t (0 : Fin 2) * 2000 + 1 * p.val; omega
      | ⟨1, _⟩ => show win0_0.index t (1 : Fin 2) * 320 + 1 * k.val = k.val; omega
    · show V c (Pipeline.arrRef spec0 1) (((cfg0.win 1).blk t).view.emb (ix2 k q)) = V c (Pipeline.arrRef spec0 1) _
      refine congrArg _ (funext fun a => Fin.ext ?_)
      match a with
      | ⟨0, _⟩ => show win0_1.index t (0 : Fin 2) * 320 + 1 * k.val = k.val; omega
      | ⟨1, _⟩ => show win0_1.index t (1 : Fin 2) * 128 + 1 * q.val = win0_3.index t (1 : Fin 2) * 128 + 1 * q.val; omega
  · show V c (Pipeline.arrRef spec0 2) (((cfg0.win 2).blk t).view.emb (ix2 p (0 : Fin 1))) = V c (Pipeline.arrRef spec0 2) _
    refine congrArg _ (funext fun a => Fin.ext ?_)
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Every index of the array is in some point's block: row `r` is in the block of point `r / 2000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The region's output array after the run is the whole-array function of its three argument arrays. -/
theorem final0 (c : Dev nD) :
    (dat0 (F := Ideal) V c).arrAt 3 cfg0.N
      = scaledProduct (M := 100000) (K := 320) (N := 128) (V c (Pipeline.arrRef spec0 0)) (V c (Pipeline.arrRef spec0 1)) (V c (Pipeline.arrRef spec0 2)) :=
  (dat0 V c).arrAt_eq_of_cover 3 (G0 V c) (fun t _ => flushed0_eq V c t) cover0

end

end Cert.KernelIdeal.BlockRows

end
-- ==== Proof.BlockRows1.lean ====
/-
  The second pipelined region (rows scaled, bias added, rectified) as one function of whole arrays.

  The region walks 25 blocks of 4000 rows. At point `t` it reads rows `4000 t … 4000 t + 3999` of the `[100000, 128]`
  operand and of the `[100000, 1]` scale column, and the whole `[1, 128]` bias row, and writes the same rows of the
  output. Entry `(p, q)` of the written block is `max (a[p,q] · d[p,0] + b[0,q]) 0` of the blocks, which is that
  expression of the arrays at row `4000 t + p`; the 25 blocks cover every row, so the output array after the region is
  `scaleBiasRelu a d b`.
-/
import proofs.«151348_j40664750358926_2_alg».proof.Proof.Gen.KernelIdeal.Frame
import proofs.«151348_j40664750358926_2_alg».proof.Proof.ScaledLayers
import proofs.«151348_j40664750358926_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockRows

open Cert.KernelIdeal Cert.KernelIdeal.Gen Cert.GraphConv Cert.Lib.PlainDot
open Idealize.ShloMosaic Idealize.ShloMosaic.TcCoe Idealize.ShloMosaic.ValueIdx Idealize.SL.Sem
open Idealize.ShloMosaic.Pipeline (Dat)

/-- The offsets of a whole-block rectangle are all zero. -/
theorem hz1 : (![0, 0] : Fin 2 → Nat) = fun _ => 0 := funext fun a => by fin_cases a <;> rfl

/-- The body's payload at an index: entry `(p, q)` of the block is `max (a[p,q] · d[p,0] + b[0,q]) 0`. -/
theorem pay1_apply (x0 : Vec Ideal S4000x128 .f32) (x1 : Vec Ideal S4000x1 .f32) (x2 : Vec Ideal S1x128 .f32)
    (p : Fin 4000) (q : Fin 128) :
    k1_pay1 x0 x1 x2 (ix2 p q) = max (x0 (ix2 p q) * x1 (ix2 p (0 : Fin 1)) + x2 (ix2 (0 : Fin 1) q)) 0 := by
  unfold k1_pay1
  simp only [shapeCast_self]
  rw [maximumf_apply, addf_apply, mulf_apply, broadcast_apply,
    Cert.Gcn.Lib.broadcastTo_a1_ab_apply, broadcastTo_1b_ab_apply]
  show max _ (Ideal.ofBits .f32 0x00000000#32) = _
  rw [Ideal.ofBits_zero_f32]

/-- The printed index maps, decided over the 25 points: the row-indexed inputs' row-block index is the output's, which
    is the point's number; every column-block index is 0; the bias row is block `(0, 0)`. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

section
variable (V : (c : Dev nD) → (b : Ref sig .tc) → Buf (Elt Ideal) ((c : Thread nD τ).loc b))

/-- The whole-array function of the region's three argument arrays as the region finds them. -/
abbrev G1 (c : Dev nD) : S100000x128.Idx → EReal :=
  scaleBiasRelu (M := 100000) (N := 128) (V c (Pipeline.arrRef spec1 0)) (V c (Pipeline.arrRef spec1 1)) (V c (Pipeline.arrRef spec1 2))

/-- What point `t` writes back is block `t` of the whole-array function: the payload at `(p, q)` reads row `p` of the
    two row-indexed blocks, which are rows `4000 t + p` of their arrays, and column `q` of the bias row. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S4000x128) hz1, View.ld_unit_zero (S := S4000x1) hz1, View.ld_unit_zero (S := S1x128) hz1]
  obtain ⟨e0, e1, e2, e3, e4, e5, e6, e7⟩ := idx_facts1 t
  refine funext fun (j : S4000x128.Idx) => ?_
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (ix2 p q)
    = G1 V c (((cfg1.win 3).blk t).view.emb (ix2 p q))
  refine (pay1_apply _ _ _ p q).trans ?_
  refine Eq.trans ?_ (scaleBiasRelu_apply _ _ _ _).symm
  refine congrArg (fun z => max z 0) (congrArg₂ (· + ·) (congrArg₂ (· * ·) ?_ ?_) ?_)
  · show V c (Pipeline.arrRef spec1 0) (((cfg1.win 0).blk t).view.emb (ix2 p q)) = V c (Pipeline.arrRef spec1 0) _
    refine congrArg _ (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  · show V c (Pipeline.arrRef spec1 1) (((cfg1.win 1).blk t).view.emb (ix2 p (0 : Fin 1))) = V c (Pipeline.arrRef spec1 1) _
    refine congrArg _ (funext fun a => Fin.ext ?_)
    match a with
    | ⟨0, _⟩ => show win1_1.index t (0 : Fin 2) * 4000 + 1 * p.val = win1_3.index t (0 : Fin 2) * 4000 + 1 * p.val; omega
    | ⟨1, _⟩ => show win1_1.index t (1 : Fin 2) * 1 + 1 * 0 = 0; omega
  · show V c (Pipeline.arrRef spec1 2) (((cfg1.win 2).blk t).view.emb (ix2 (0 : Fin 1) q)) = V c (Pipeline.arrRef spec1 2) _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v28).slice (win1_3.rect t)).set ↔ _
  rw [View.set_slice_whole, Rect.mem_set_unit]
  exact Iff.rfl

/-- Every index of the array is in some point's block: row `r` is in the block of point `r / 4000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by show (i 0).val / 4000 < 25; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- The region's output array after the run is the whole-array function of its three argument arrays. -/
theorem final1 (c : Dev nD) :
    (dat1 (F := Ideal) V c).arrAt 3 cfg1.N
      = scaleBiasRelu (M := 100000) (N := 128) (V c (Pipeline.arrRef spec1 0)) (V c (Pipeline.arrRef spec1 1)) (V c (Pipeline.arrRef spec1 2)) :=
  (dat1 V c).arrAt_eq_of_cover 3 (G1 V c) (fun t _ => flushed1_eq V c t) cover1

end

end Cert.KernelIdeal.BlockRows

end
-- ==== Proof.BlockRows2.lean ====
/-
  The third pipelined region (hidden features projected, rows pre-scaled) as one function of whole arrays.

  The region walks 50 blocks of 2000 rows. At point `t` it reads rows `2000 t … 2000 t + 1999` of the `[100000, 128]`
  hidden features and of the `[100000, 1]` scale column, and the whole `[128, 128]` weight matrix, and writes the same
  rows of the output. Entry `(p, q)` of the written block is `(x · w)[p,q] · d[p,0]` of the blocks; a row of a product
  is the product of the row, so this is that expression of the arrays at row `2000 t + p`. The 50 blocks cover every
  row, so the output array after the region is `scaledProduct x w d`.
-/
import proofs.«151348_j40664750358926_2_alg».proof.Proof.Gen.KernelIdeal.Frame
import proofs.«151348_j40664750358926_2_alg».proof.Proof.ScaledLayers
import proofs.«151348_j40664750358926_2_alg».proof.Proof.LibKeepdimsColumn
import proofs.«151348_j40664750358926_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockRows

open Cert.KernelIdeal Cert.KernelIdeal.Gen Cert.GraphConv Cert.Lib.PlainDot
open Idealize.ShloMosaic Idealize.ShloMosaic.TcCoe Idealize.ShloMosaic.ValueIdx Idealize.SL.Sem
open Idealize.ShloMosaic.Pipeline (Dat)

/-- The offsets of a whole-block rectangle are all zero. -/
theorem hz2 : (![0, 0] : Fin 2 → Nat) = fun _ => 0 := funext fun a => by fin_cases a <;> rfl

/-- The body's payload at an index: entry `(p, q)` of the block is `(x · w)[p,q] · d[p,0]`. The operands' narrowing to
    the 16-bit format is the identity on the extended reals, and the product accumulates into zero. -/
theorem pay2_apply (x0 : Vec Ideal S2000x128 .f32) (x1 : Vec Ideal S128x128 .f32) (x2 : Vec Ideal S2000x1 .f32)
    (p : Fin 2000) (q : Fin 128) :
    k2_pay1 x0 x1 x2 (ix2 p q) = rowsByCols x0 x1 (ix2 p q) * x2 (ix2 p (0 : Fin 1)) := by
  unfold k2_pay1
  simp only [shapeCast_self]
  rw [mulf_apply, Cert.Gcn.Lib.broadcastTo_a1_ab_apply]
  refine congrArg (· * x2 (ix2 p (0 : Fin 1))) ?_
  refine (congrFun (matmul_zero_eq dot_S2000x128_S128x128_S2000x128_1_0_0_1_n_n rfl none _ _) (ix2 p q)).trans ?_
  rfl

/-- The printed index maps, decided over the 50 points: the row-indexed inputs' row-block index is the output's, which
    is the point's number; every column-block index is 0; the weights are block `(0, 0)`. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

section
variable (V : (c : Dev nD) → (b : Ref sig .tc) → Buf (Elt Ideal) ((c : Thread nD τ).loc b))

/-- The whole-array function of the region's three argument arrays as the region finds them. -/
abbrev G2 (c : Dev nD) : S100000x128.Idx → EReal :=
  scaledProduct (M := 100000) (K := 128) (N := 128) (V c (Pipeline.arrRef spec2 0)) (V c (Pipeline.arrRef spec2 1)) (V c (Pipeline.arrRef spec2 2))

/-- What point `t` writes back is block `t` of the whole-array function: row `p` of the left block and of the scale
    column's block are rows `2000 t + p` of their arrays, the right operand is read whole, and a row of a product is
    the product of the row. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2, View.ld_unit_zero (S := S2000x1) hz2]
  obtain ⟨e0, e1, e2, e3, e4, e5, e6, e7⟩ := idx_facts2 t
  refine funext fun (j : S2000x128.Idx) => ?_
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (ix2 p q)
    = G2 V c (((cfg2.win 3).blk t).view.emb (ix2 p q))
  refine (pay2_apply _ _ _ p q).trans ?_
  refine Eq.trans ?_ (scaledProduct_apply _ _ _ _).symm
  refine congrArg₂ (· * ·) ?_ ?_
  · refine rowsByCols_congr (M := 100000) (M' := 2000) (K := 128) (N := 128) (N' := 128) _ _ _ _ _ _ (fun k => ?_) (fun k => ?_)
    · show V c (Pipeline.arrRef spec2 0) (((cfg2.win 0).blk t).view.emb (ix2 p k)) = V c (Pipeline.arrRef spec2 0) _
      refine congrArg _ (funext fun a => Fin.ext ?_)
      match a with
      | ⟨0, _⟩ => show win2_0.index t (0 : Fin 2) * 2000 + 1 * p.val = win2_3.index t (0 : Fin 2) * 2000 + 1 * p.val; omega
      | ⟨1, _⟩ => show win2_0.index t (1 : Fin 2) * 128 + 1 * k.val = k.val; omega
    · show V c (Pipeline.arrRef spec2 1) (((cfg2.win 1).blk t).view.emb (ix2 k q)) = V c (Pipeline.arrRef spec2 1) _
      refine congrArg _ (funext fun a => Fin.ext ?_)
      match a with
      | ⟨0, _⟩ => show win2_1.index t (0 : Fin 2) * 128 + 1 * k.val = k.val; omega
      | ⟨1, _⟩ => show win2_1.index t (1 : Fin 2) * 128 + 1 * q.val = win2_3.index t (1 : Fin 2) * 128 + 1 * q.val; omega
  · show V c (Pipeline.arrRef spec2 2) (((cfg2.win 2).blk t).view.emb (ix2 p (0 : Fin 1))) = V c (Pipeline.arrRef spec2 2) _
    refine congrArg _ (funext fun a => Fin.ext ?_)
    match a with
    | ⟨0, _⟩ => show win2_2.index t (0 : Fin 2) * 2000 + 1 * p.val = win2_3.index t (0 : Fin 2) * 2000 + 1 * p.val; omega
    | ⟨1, _⟩ => show win2_2.index t (1 : Fin 2) * 1 + 1 * 0 = 0; omega

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v29).slice (win2_3.rect t)).set ↔ _
  rw [View.set_slice_whole, Rect.mem_set_unit]
  exact Iff.rfl

/-- Every index of the array is in some point's block: row `r` is in the block of point `r / 2000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < 50; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- The region's output array after the run is the whole-array function of its three argument arrays. -/
theorem final2 (c : Dev nD) :
    (dat2 (F := Ideal) V c).arrAt 3 cfg2.N
      = scaledProduct (M := 100000) (K := 128) (N := 128) (V c (Pipeline.arrRef spec2 0)) (V c (Pipeline.arrRef spec2 1)) (V c (Pipeline.arrRef spec2 2)) :=
  (dat2 V c).arrAt_eq_of_cover 3 (G2 V c) (fun t _ => flushed2_eq V c t) cover2

end

end Cert.KernelIdeal.BlockRows

end
-- ==== Proof.BlockRows3.lean ====
/-
  The fourth pipelined region (rows scaled, bias added, rectified; the second layer's) as one function of whole arrays.

  The region walks 25 blocks of 4000 rows. At point `t` it reads rows `4000 t … 4000 t + 3999` of the `[100000, 128]`
  operand and of the `[100000, 1]` scale column, and the whole `[1, 128]` bias row, and writes the same rows of the
  output. Entry `(p, q)` of the written block is `max (a[p,q] · d[p,0] + b[0,q]) 0` of the blocks, which is that
  expression of the arrays at row `4000 t + p`; the 25 blocks cover every row, so the output array after the region is
  `scaleBiasRelu a d b`.
-/
import proofs.«151348_j40664750358926_2_alg».proof.Proof.Gen.KernelIdeal.Frame
import proofs.«151348_j40664750358926_2_alg».proof.Proof.ScaledLayers
import proofs.«151348_j40664750358926_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockRows

open Cert.KernelIdeal Cert.KernelIdeal.Gen Cert.GraphConv Cert.Lib.PlainDot
open Idealize.ShloMosaic Idealize.ShloMosaic.TcCoe Idealize.ShloMosaic.ValueIdx Idealize.SL.Sem
open Idealize.ShloMosaic.Pipeline (Dat)

/-- The offsets of a whole-block rectangle are all zero. -/
theorem hz3 : (![0, 0] : Fin 2 → Nat) = fun _ => 0 := funext fun a => by fin_cases a <;> rfl

/-- The body's payload at an index: entry `(p, q)` of the block is `max (a[p,q] · d[p,0] + b[0,q]) 0`. -/
theorem pay3_apply (x0 : Vec Ideal S4000x128 .f32) (x1 : Vec Ideal S4000x1 .f32) (x2 : Vec Ideal S1x128 .f32)
    (p : Fin 4000) (q : Fin 128) :
    k3_pay1 x0 x1 x2 (ix2 p q) = max (x0 (ix2 p q) * x1 (ix2 p (0 : Fin 1)) + x2 (ix2 (0 : Fin 1) q)) 0 := by
  unfold k3_pay1
  simp only [shapeCast_self]
  rw [maximumf_apply, addf_apply, mulf_apply, broadcast_apply,
    Cert.Gcn.Lib.broadcastTo_a1_ab_apply, broadcastTo_1b_ab_apply]
  show max _ (Ideal.ofBits .f32 0x00000000#32) = _
  rw [Ideal.ofBits_zero_f32]

/-- The printed index maps, decided over the 25 points: the row-indexed inputs' row-block index is the output's, which
    is the point's number; every column-block index is 0; the bias row is block `(0, 0)`. -/
theorem idx_facts3 : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

section
variable (V : (c : Dev nD) → (b : Ref sig .tc) → Buf (Elt Ideal) ((c : Thread nD τ).loc b))

/-- The whole-array function of the region's three argument arrays as the region finds them. -/
abbrev G3 (c : Dev nD) : S100000x128.Idx → EReal :=
  scaleBiasRelu (M := 100000) (N := 128) (V c (Pipeline.arrRef spec3 0)) (V c (Pipeline.arrRef spec3 1)) (V c (Pipeline.arrRef spec3 2))

/-- What point `t` writes back is block `t` of the whole-array function: the payload at `(p, q)` reads row `p` of the
    two row-indexed blocks, which are rows `4000 t + p` of their arrays, and column `q` of the bias row. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S4000x128) hz3, View.ld_unit_zero (S := S4000x1) hz3, View.ld_unit_zero (S := S1x128) hz3]
  obtain ⟨e0, e1, e2, e3, e4, e5, e6, e7⟩ := idx_facts3 t
  refine funext fun (j : S4000x128.Idx) => ?_
  obtain ⟨p, q, rfl⟩ : ∃ (p : Fin 4000) (q : Fin 128), j = ix2 p q := ⟨j 0, j 1, eq_ix2 j⟩
  show k3_pay1 (iblk3 V c 0 t) (iblk3 V c 1 t) (iblk3 V c 2 t) (ix2 p q)
    = G3 V c (((cfg3.win 3).blk t).view.emb (ix2 p q))
  refine (pay3_apply _ _ _ p q).trans ?_
  refine Eq.trans ?_ (scaleBiasRelu_apply _ _ _ _).symm
  refine congrArg (fun z => max z 0) (congrArg₂ (· + ·) (congrArg₂ (· * ·) ?_ ?_) ?_)
  · show V c (Pipeline.arrRef spec3 0) (((cfg3.win 0).blk t).view.emb (ix2 p q)) = V c (Pipeline.arrRef spec3 0) _
    refine congrArg _ (funext fun a => Fin.ext ?_)
    match a with
    | ⟨0, _⟩ => show win3_0.index t (0 : Fin 2) * 4000 + 1 * p.val = win3_3.index t (0 : Fin 2) * 4000 + 1 * p.val; omega
    | ⟨1, _⟩ => show win3_0.index t (1 : Fin 2) * 128 + 1 * q.val = win3_3.index t (1 : Fin 2) * 128 + 1 * q.val; omega
  · show V c (Pipeline.arrRef spec3 1) (((cfg3.win 1).blk t).view.emb (ix2 p (0 : Fin 1))) = V c (Pipeline.arrRef spec3 1) _
    refine congrArg _ (funext fun a => Fin.ext ?_)
    match a with
    | ⟨0, _⟩ => show win3_1.index t (0 : Fin 2) * 4000 + 1 * p.val = win3_3.index t (0 : Fin 2) * 4000 + 1 * p.val; omega
    | ⟨1, _⟩ => show win3_1.index t (1 : Fin 2) * 1 + 1 * 0 = 0; omega
  · show V c (Pipeline.arrRef spec3 2) (((cfg3.win 2).blk t).view.emb (ix2 (0 : Fin 1) q)) = V c (Pipeline.arrRef spec3 2) _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v41).slice (win3_3.rect t)).set ↔ _
  rw [View.set_slice_whole, Rect.mem_set_unit]
  exact Iff.rfl

/-- Every index of the array is in some point's block: row `r` is in the block of point `r / 4000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 4000 :=
    ⟨⟨(i 0).val / 4000, by show (i 0).val / 4000 < 25; omega⟩, rfl⟩
  obtain ⟨-, -, -, -, -, -, e6, e7⟩ := idx_facts3 t
  refine ⟨t, flush3_3 t, ?_⟩
  rw [mem_blk3]
  intro a
  match a with
  | ⟨0, _⟩ =>
    show win3_3.index t (0 : Fin 2) * 4000 ≤ (i 0).val ∧ (i 0).val < win3_3.index t (0 : Fin 2) * 4000 + 4000
    omega
  | ⟨1, _⟩ =>
    show win3_3.index t (1 : Fin 2) * 128 ≤ (i 1).val ∧ (i 1).val < win3_3.index t (1 : Fin 2) * 128 + 128
    omega

/-- The region's output array after the run is the whole-array function of its three argument arrays. -/
theorem final3 (c : Dev nD) :
    (dat3 (F := Ideal) V c).arrAt 3 cfg3.N
      = scaleBiasRelu (M := 100000) (N := 128) (V c (Pipeline.arrRef spec3 0)) (V c (Pipeline.arrRef spec3 1)) (V c (Pipeline.arrRef spec3 2)) :=
  (dat3 V c).arrAt_eq_of_cover 3 (G3 V c) (fun t _ => flushed3_eq V c t) cover3

end

end Cert.KernelIdeal.BlockRows

end
-- ==== Proof.BlockRows4.lean ====
/-
  The last pipelined region (the final linear map with its bias row) as one function of whole arrays.

  The region has one grid point, whose blocks are the whole arrays: the `[512, 128]` pooled features, the `[128, 2]`
  weights and the `[1, 2]` bias row in, the `[512, 2]` output out. Entry `(p, q)` written is `(x · w)[p,q] + b[0,q]`,
  and the one block covers the array, so the output array after the region is `productBias x w b`.
-/
import proofs.«151348_j40664750358926_2_alg».proof.Proof.Gen.KernelIdeal.Frame
import proofs.«151348_j40664750358926_2_alg».proof.Proof.ScaledLayers
import proofs.«151348_j40664750358926_2_alg».proof.Proof.LibKeepdimsColumn
import proofs.«151348_j40664750358926_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockRows

open Cert.KernelIdeal Cert.KernelIdeal.Gen Cert.GraphConv Cert.Lib.PlainDot
open Idealize.ShloMosaic Idealize.ShloMosaic.TcCoe Idealize.ShloMosaic.ValueIdx Idealize.SL.Sem
open Idealize.ShloMosaic.Pipeline (Dat)

/-- The offsets of a whole-block rectangle are all zero. -/
theorem hz4 : (![0, 0] : Fin 2 → Nat) = fun _ => 0 := funext fun a => by fin_cases a <;> rfl

/-- The body's payload at an index: entry `(p, q)` is `(x · w)[p,q] + b[0,q]`. The operands' narrowing to the 16-bit
    format is the identity on the extended reals, and the product accumulates into zero. -/
theorem pay4_apply (x0 : Vec Ideal S512x128 .f32) (x1 : Vec Ideal S128x2 .f32) (x2 : Vec Ideal S1x2 .f32)
    (p : Fin 512) (q : Fin 2) :
    k4_pay1 x0 x1 x2 (ix2 p q) = rowsByCols x0 x1 (ix2 p q) + x2 (ix2 (0 : Fin 1) q) := by
  unfold k4_pay1
  simp only [shapeCast_self]
  rw [addf_apply, broadcastTo_1b_ab_apply]
  refine congrArg (· + x2 (ix2 (0 : Fin 1) q)) ?_
  refine (congrFun (matmul_zero_eq dot_S512x128_S128x2_S512x2_1_0_0_1_n_n rfl none _ _) (ix2 p q)).trans ?_
  rfl

/-- The printed index maps at the one point: every window's block is block `(0, 0)`, its whole array. -/
theorem idx_facts4 : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

section
variable (V : (c : Dev nD) → (b : Ref sig .tc) → Buf (Elt Ideal) ((c : Thread nD τ).loc b))

/-- The whole-array function of the region's three argument arrays as the region finds them. -/
abbrev G4 (c : Dev nD) : S512x2.Idx → EReal :=
  productBias (M := 512) (K := 128) (N := 2) (V c (Pipeline.arrRef spec4 0)) (V c (Pipeline.arrRef spec4 1)) (V c (Pipeline.arrRef spec4 2))

/-- What the one point writes back is the whole-array function: each block is its whole array. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S512x128) hz4, View.ld_unit_zero (S := S128x2) hz4, View.ld_unit_zero (S := S1x2) hz4]
  obtain ⟨e0, e1, e2, e3, e4, e5, e6, e7⟩ := idx_facts4 t
  refine funext fun (j : S512x2.Idx) => ?_
  obtain ⟨p, q, rfl⟩ : ∃ (p : Fin 512) (q : Fin 2), j = ix2 p q := ⟨j 0, j 1, eq_ix2 j⟩
  show k4_pay1 (iblk4 V c 0 t) (iblk4 V c 1 t) (iblk4 V c 2 t) (ix2 p q)
    = G4 V c (((cfg4.win 3).blk t).view.emb (ix2 p q))
  refine (pay4_apply _ _ _ p q).trans ?_
  refine Eq.trans ?_ (productBias_apply _ _ _ _).symm
  refine congrArg₂ (· + ·) ?_ ?_
  · refine rowsByCols_congr (M := 512) (M' := 512) (K := 128) (N := 2) (N' := 2) _ _ _ _ _ _ (fun k => ?_) (fun k => ?_)
    · show V c (Pipeline.arrRef spec4 0) (((cfg4.win 0).blk t).view.emb (ix2 p k)) = V c (Pipeline.arrRef spec4 0) _
      refine congrArg _ (funext fun a => Fin.ext ?_)
      match a with
      | ⟨0, _⟩ => show win4_0.index t (0 : Fin 2) * 512 + 1 * p.val = win4_3.index t (0 : Fin 2) * 512 + 1 * p.val; omega
      | ⟨1, _⟩ => show win4_0.index t (1 : Fin 2) * 128 + 1 * k.val = k.val; omega
    · show V c (Pipeline.arrRef spec4 1) (((cfg4.win 1).blk t).view.emb (ix2 k q)) = V c (Pipeline.arrRef spec4 1) _
      refine congrArg _ (funext fun a => Fin.ext ?_)
      match a with
      | ⟨0, _⟩ => show win4_1.index t (0 : Fin 2) * 128 + 1 * k.val = k.val; omega
      | ⟨1, _⟩ => show win4_1.index t (1 : Fin 2) * 2 + 1 * q.val = win4_3.index t (1 : Fin 2) * 2 + 1 * q.val; omega
  · show V c (Pipeline.arrRef spec4 2) (((cfg4.win 2).blk t).view.emb (ix2 (0 : Fin 1) q)) = V c (Pipeline.arrRef spec4 2) _
    refine congrArg _ (funext fun a => Fin.ext ?_)
    match a with
    | ⟨0, _⟩ => show win4_2.index t (0 : Fin 2) * 1 + 1 * 0 = 0; omega
    | ⟨1, _⟩ => show win4_2.index t (1 : Fin 2) * 2 + 1 * q.val = win4_3.index t (1 : Fin 2) * 2 + 1 * q.val; omega

/-- An index of the array is in point `t`'s block iff each coordinate is in the block's range on its axis. -/
theorem mem_blk4 (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v55).slice (win4_3.rect t)).set ↔ _
  rw [View.set_slice_whole, Rect.mem_set_unit]
  exact Iff.rfl

/-- Every index of the array is in the one point's block. -/
theorem cover4 (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  obtain ⟨t, ht⟩ : ∃ t : Fin cfg4.N, t.val = 0 := ⟨⟨0, by show 0 < 1; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 512 ≤ (i 0).val ∧ (i 0).val < win4_3.index t (0 : Fin 2) * 512 + 512
    omega
  | ⟨1, _⟩ =>
    show win4_3.index t (1 : Fin 2) * 2 ≤ (i 1).val ∧ (i 1).val < win4_3.index t (1 : Fin 2) * 2 + 2
    omega

/-- The region's output array after the run is the whole-array function of its three argument arrays. -/
theorem final4 (c : Dev nD) :
    (dat4 (F := Ideal) V c).arrAt 3 cfg4.N
      = productBias (M := 512) (K := 128) (N := 2) (V c (Pipeline.arrRef spec4 0)) (V c (Pipeline.arrRef spec4 1)) (V c (Pipeline.arrRef spec4 2)) :=
  (dat4 V c).arrAt_eq_of_cover 3 (G4 V c) (fun t _ => flushed4_eq V c t) cover4

end

end Cert.KernelIdeal.BlockRows

end
-- ==== Proof.KernelValue.lean ====
/-
  The idealized kernel program's result as one function of its argument arrays.

  The run's last boundary holds the result buffer at the fifth region's output array. Walking the boundaries back to the
  launch: each region's output array is its whole-array function (a scaled product, a scaled and rectified sum with a
  bias row, a product with a bias row) of the arrays the region finds; each host stretch's results are its operations
  applied to what it finds; a buffer nothing in between writes is found as it was left. Composed, the result is

    productBias (pool h₂) Wfc bfc,   h₂ = layer (layer x W₁ b₁) W₂ b₂,
    layer f W b = scaleBiasRelu (segment-sum over dst of the rows (f · W · dinv) gathered at src) dinv b,

  with `dinv` the column of inverse square-root degrees and `pool` the mean over each graph's nodes.
-/
import proofs.«151348_j40664750358926_2_alg».proof.Proof.KernelRun
import proofs.«151348_j40664750358926_2_alg».proof.Proof.BlockRows0
import proofs.«151348_j40664750358926_2_alg».proof.Proof.BlockRows1
import proofs.«151348_j40664750358926_2_alg».proof.Proof.BlockRows2
import proofs.«151348_j40664750358926_2_alg».proof.Proof.BlockRows3
import proofs.«151348_j40664750358926_2_alg».proof.Proof.BlockRows4
import proofs.«151348_j40664750358926_2_alg».proof.Proof.ScaledLayers
import Idealize.ShloMosaic.Lib.StableHlo.Run

set_option maxRecDepth 16384

noncomputable section

namespace Cert.KernelIdeal.RunValue

open Cert.KernelIdeal Cert.KernelIdeal.Gen Cert.KernelIdeal.BlockRows Cert.GraphConv
open Idealize.ShloMosaic Idealize.ShloMosaic.TcCoe Idealize.ShloMosaic.Tactic Idealize.ShloMosaic.StableHlo
open Idealize.SL Idealize.SL.Sem

/-! ## The host stretch before the first region, at any float instance

The edge lists, the degree and its inverse square root are computed by host operations from the integer argument
alone; what the first region finds in their buffers is read off the fold of those operations. -/

section AnyInstance

variable {F : FTy → Type} [FloatOps F] (m : (ℓ : Loc nD τ sig) → Buf (Elt F) ℓ) (ρ : Dev nD → PrngReg)

/-- The source node of each edge: row 0 of the edge list, then one self loop per node. -/
abbrev srcIds (c : Dev nD) : IVec S1700000 32 :=
  concatenate S1700000 0 [⟨S1600000, (shapeCast _ (extractStridedSlice S1x1600000 ![0, 0] (m ((c : Thread nD τ).loc main_arg1)) slices_S2x1600000_S1x1600000_0_0) shapeCasts_S1x1600000_S1600000)⟩, ⟨S100000, (iotaInDim S100000 32 0)⟩] concatenates_S1600000_S100000_S1700000_d0
/-- The destination node of each edge: row 1 of the edge list, then the self loops. -/
abbrev dstIds (c : Dev nD) : IVec S1700000 32 :=
  concatenate S1700000 0 [⟨S1600000, (shapeCast _ (extractStridedSlice S1x1600000 ![1, 0] (m ((c : Thread nD τ).loc main_arg1)) slices_S2x1600000_S1x1600000_1_0) shapeCasts_S1x1600000_S1600000)⟩, ⟨S100000, (iotaInDim S100000 32 0)⟩] concatenates_S1600000_S100000_S1700000_d0
/-- The in-degree of each node, self loop included. -/
abbrev degK (c : Dev nD) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIds m c)) (broadcastInDim S1700000 ![] bcast_S_S1700000 (constant S_ .f32 0x3F800000#32))
/-- Its inverse square root, zero where the degree is not positive. -/
abbrev dinvK (c : Dev nD) : FVec F S100000 .f32 :=
  select (cmpf (F := F) .ogt (degK m c) (broadcastInDim S100000 ![] bcast_S_S100000 (constant S_ .f32 0x00000000#32))) (Host.rsqrt (degK m c)) (broadcastInDim S100000 ![] bcast_S_S100000 (id (constant S_ .f32 0x00000000#32)))
/-- The same as a column. -/
abbrev dcolK (c : Dev nD) : FVec F S100000x1 .f32 := shapeCast S100000x1 (dinvK m c) shapeCasts_S100000_S100000x1
/-- The source nodes with a negative index wrapped. -/
abbrev wsrcK (c : Dev nD) : IVec S1700000 32 :=
  select (cmpi .slt (srcIds m c) (broadcastInDim S1700000 ![] bcast_S_S1700000 (constantI S_ 32 0#32))) (addi (srcIds m c) (broadcastInDim S1700000 ![] bcast_S_S1700000 (constantI S_ 32 100000#32))) (srcIds m c)

set_option maxHeartbeats 4000000 in
theorem val3_v3 (c : Dev nD) : W3 m ρ c (Proc.devRef .tc main_v3) = srcIds m c := by
  show StableHlo.after hostOps0_2 (StableHlo.after hostOps0_1 (StableHlo.after hostOps0 (W0 m ρ c))) (Proc.devRef .tc main_v3) = _
  simp only [hostOps0_2, hostOps0_1, hostOps0]
  after_results
  rfl
set_option maxHeartbeats 4000000 in
theorem val3_v6 (c : Dev nD) : W3 m ρ c (Proc.devRef .tc main_v6) = dstIds m c := by
  show StableHlo.after hostOps0_2 (StableHlo.after hostOps0_1 (StableHlo.after hostOps0 (W0 m ρ c))) (Proc.devRef .tc main_v6) = _
  simp only [hostOps0_2, hostOps0_1, hostOps0]
  after_results
  rfl
set_option maxHeartbeats 4000000 in
theorem val1_v10 (c : Dev nD) : W1 m ρ c (Proc.devRef .tc main_v10) = degK m c := by
  show StableHlo.after hostOps0 (W0 m ρ c) (Proc.devRef .tc main_v10) = _
  simp only [hostOps0]
  after_results
  rfl
set_option maxHeartbeats 4000000 in
theorem val1_v12 (c : Dev nD) : W1 m ρ c (Proc.devRef .tc main_v12)
    = cmpf (F := F) .ogt (degK m c) (broadcastInDim S100000 ![] bcast_S_S100000 (constant S_ .f32 0x00000000#32)) := by
  show StableHlo.after hostOps0 (W0 m ρ c) (Proc.devRef .tc main_v12) = _
  simp only [hostOps0]
  after_results
  rfl
set_option maxHeartbeats 4000000 in
theorem val1_v13 (c : Dev nD) : W1 m ρ c (Proc.devRef .tc main_v13) = Host.rsqrt (degK m c) := by
  show StableHlo.after hostOps0 (W0 m ρ c) (Proc.devRef .tc main_v13) = _
  simp only [hostOps0]
  after_results
  rfl
set_option maxHeartbeats 4000000 in
theorem val1_cst_2 (c : Dev nD) : W1 m ρ c (Proc.devRef .tc main_cst_2) = constant (F := F) S_ .f32 0x00000000#32 := by
  show StableHlo.after hostOps0 (W0 m ρ c) (Proc.devRef .tc main_cst_2) = _
  simp only [hostOps0]
  after_results
set_option maxHeartbeats 4000000 in
theorem val2_v14 (c : Dev nD) : W2 m ρ c (Proc.devRef .tc main_v14) = dinvK m c := by
  have h12 := val1_v12 m ρ c
  have h13 := val1_v13 m ρ c
  have hc2 := val1_cst_2 m ρ c
  show StableHlo.after hostOps0_1 (W1 m ρ c) (Proc.devRef .tc main_v14) = _
  generalize W1 m ρ c = Wv at h12 h13 hc2 ⊢
  simp only [hostOps0_1]
  after_results
  rw [h12, h13, hc2]
  rfl
set_option maxHeartbeats 4000000 in
theorem val3_v15 (c : Dev nD) : W3 m ρ c (Proc.devRef .tc main_v15) = dcolK m c := by
  have h14 := val2_v14 m ρ c
  show StableHlo.after hostOps0_2 (W2 m ρ c) (Proc.devRef .tc main_v15) = _
  generalize W2 m ρ c = Wv at h14 ⊢
  simp only [hostOps0_2]
  after_results
  rw [h14]
  rfl

end AnyInstance

variable (m : (ℓ : Loc nD τ sig) → Buf (Elt Ideal) ℓ) (ρ : Dev nD → PrngReg)

/-- A buffer that no operation of a host stretch writes is found after the stretch as it was before it. -/
macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Buffers found as they were left -/

theorem keep_arg0_3 (c : Dev nD) : W3 m ρ c (Proc.devRef .tc main_arg0) = m ((c : Thread nD τ).loc main_arg0) :=
  calc W3 m ρ c (Proc.devRef .tc main_arg0)
    _ = W2 m ρ c (Proc.devRef .tc main_arg0) := (by host_keep hostOps0_2)
    _ = W1 m ρ c (Proc.devRef .tc main_arg0) := (by host_keep hostOps0_1)
    _ = W0 m ρ c (Proc.devRef .tc main_arg0) := (by host_keep hostOps0)
    _ = m ((c : Thread nD τ).loc main_arg0) := rfl

theorem keep_arg3_3 (c : Dev nD) : W3 m ρ c (Proc.devRef .tc main_arg3) = m ((c : Thread nD τ).loc main_arg3) :=
  calc W3 m ρ c (Proc.devRef .tc main_arg3)
    _ = W2 m ρ c (Proc.devRef .tc main_arg3) := (by host_keep hostOps0_2)
    _ = W1 m ρ c (Proc.devRef .tc main_arg3) := (by host_keep hostOps0_1)
    _ = W0 m ρ c (Proc.devRef .tc main_arg3) := (by host_keep hostOps0)
    _ = m ((c : Thread nD τ).loc main_arg3) := rfl

theorem keep_arg4_4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_of_ne m ρ c main_arg4 (by decide))
    _ = W2 m ρ c (Proc.devRef .tc main_arg4) := (by host_keep hostOps0_2)
    _ = W1 m ρ c (Proc.devRef .tc main_arg4) := (by host_keep hostOps0_1)
    _ = W0 m ρ c (Proc.devRef .tc main_arg4) := (by host_keep hostOps0)
    _ = m ((c : Thread nD τ).loc main_arg4) := rfl

theorem keep_arg5_6 (c : Dev nD) : W6 m ρ c (Proc.devRef .tc main_arg5) = m ((c : Thread nD τ).loc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (by host_keep hostOps1)
    _ = W3 m ρ c (Proc.devRef .tc main_arg5) := (W4_of_ne m ρ c main_arg5 (by decide))
    _ = W2 m ρ c (Proc.devRef .tc main_arg5) := (by host_keep hostOps0_2)
    _ = W1 m ρ c (Proc.devRef .tc main_arg5) := (by host_keep hostOps0_1)
    _ = W0 m ρ c (Proc.devRef .tc main_arg5) := (by host_keep hostOps0)
    _ = m ((c : Thread nD τ).loc main_arg5) := rfl

theorem keep_arg6_7 (c : Dev nD) : W7 m ρ c (Proc.devRef .tc main_arg6) = m ((c : Thread nD τ).loc main_arg6) :=
  calc W7 m ρ c (Proc.devRef .tc main_arg6)
    _ = W6 m ρ c (Proc.devRef .tc main_arg6) := (W7_of_ne m ρ c main_arg6 (by decide))
    _ = W5 m ρ c (Proc.devRef .tc main_arg6) := (W6_of_ne m ρ c main_arg6 (by decide))
    _ = W4 m ρ c (Proc.devRef .tc main_arg6) := (by host_keep hostOps1)
    _ = W3 m ρ c (Proc.devRef .tc main_arg6) := (W4_of_ne m ρ c main_arg6 (by decide))
    _ = W2 m ρ c (Proc.devRef .tc main_arg6) := (by host_keep hostOps0_2)
    _ = W1 m ρ c (Proc.devRef .tc main_arg6) := (by host_keep hostOps0_1)
    _ = W0 m ρ c (Proc.devRef .tc main_arg6) := (by host_keep hostOps0)
    _ = m ((c : Thread nD τ).loc main_arg6) := rfl

theorem keep_arg2_9 (c : Dev nD) : W9 m ρ c (Proc.devRef .tc main_arg2) = m ((c : Thread nD τ).loc main_arg2) :=
  calc W9 m ρ c (Proc.devRef .tc main_arg2)
    _ = W8 m ρ c (Proc.devRef .tc main_arg2) := (W9_of_ne m ρ c main_arg2 (by decide))
    _ = W7 m ρ c (Proc.devRef .tc main_arg2) := (by host_keep hostOps3)
    _ = W6 m ρ c (Proc.devRef .tc main_arg2) := (W7_of_ne m ρ c main_arg2 (by decide))
    _ = W5 m ρ c (Proc.devRef .tc main_arg2) := (W6_of_ne m ρ c main_arg2 (by decide))
    _ = W4 m ρ c (Proc.devRef .tc main_arg2) := (by host_keep hostOps1)
    _ = W3 m ρ c (Proc.devRef .tc main_arg2) := (W4_of_ne m ρ c main_arg2 (by decide))
    _ = W2 m ρ c (Proc.devRef .tc main_arg2) := (by host_keep hostOps0_2)
    _ = W1 m ρ c (Proc.devRef .tc main_arg2) := (by host_keep hostOps0_1)
    _ = W0 m ρ c (Proc.devRef .tc main_arg2) := (by host_keep hostOps0)
    _ = m ((c : Thread nD τ).loc main_arg2) := rfl

theorem keep_arg8_9 (c : Dev nD) : W9 m ρ c (Proc.devRef .tc main_arg8) = m ((c : Thread nD τ).loc main_arg8) :=
  calc W9 m ρ c (Proc.devRef .tc main_arg8)
    _ = W8 m ρ c (Proc.devRef .tc main_arg8) := (W9_of_ne m ρ c main_arg8 (by decide))
    _ = W7 m ρ c (Proc.devRef .tc main_arg8) := (by host_keep hostOps3)
    _ = W6 m ρ c (Proc.devRef .tc main_arg8) := (W7_of_ne m ρ c main_arg8 (by decide))
    _ = W5 m ρ c (Proc.devRef .tc main_arg8) := (W6_of_ne m ρ c main_arg8 (by decide))
    _ = W4 m ρ c (Proc.devRef .tc main_arg8) := (by host_keep hostOps1)
    _ = W3 m ρ c (Proc.devRef .tc main_arg8) := (W4_of_ne m ρ c main_arg8 (by decide))
    _ = W2 m ρ c (Proc.devRef .tc main_arg8) := (by host_keep hostOps0_2)
    _ = W1 m ρ c (Proc.devRef .tc main_arg8) := (by host_keep hostOps0_1)
    _ = W0 m ρ c (Proc.devRef .tc main_arg8) := (by host_keep hostOps0)
    _ = m ((c : Thread nD τ).loc main_arg8) := rfl

theorem keep_arg7_10 (c : Dev nD) : W10 m ρ c (Proc.devRef .tc main_arg7) = m ((c : Thread nD τ).loc main_arg7) :=
  calc W10 m ρ c (Proc.devRef .tc main_arg7)
    _ = W9 m ρ c (Proc.devRef .tc main_arg7) := (by host_keep hostOps4)
    _ = W8 m ρ c (Proc.devRef .tc main_arg7) := (W9_of_ne m ρ c main_arg7 (by decide))
    _ = W7 m ρ c (Proc.devRef .tc main_arg7) := (by host_keep hostOps3)
    _ = W6 m ρ c (Proc.devRef .tc main_arg7) := (W7_of_ne m ρ c main_arg7 (by decide))
    _ = W5 m ρ c (Proc.devRef .tc main_arg7) := (W6_of_ne m ρ c main_arg7 (by decide))
    _ = W4 m ρ c (Proc.devRef .tc main_arg7) := (by host_keep hostOps1)
    _ = W3 m ρ c (Proc.devRef .tc main_arg7) := (W4_of_ne m ρ c main_arg7 (by decide))
    _ = W2 m ρ c (Proc.devRef .tc main_arg7) := (by host_keep hostOps0_2)
    _ = W1 m ρ c (Proc.devRef .tc main_arg7) := (by host_keep hostOps0_1)
    _ = W0 m ρ c (Proc.devRef .tc main_arg7) := (by host_keep hostOps0)
    _ = m ((c : Thread nD τ).loc main_arg7) := rfl

theorem keep_v15_5 (c : Dev nD) : W5 m ρ c (Proc.devRef .tc main_v15) = W3 m ρ c (Proc.devRef .tc main_v15) :=
  calc W5 m ρ c (Proc.devRef .tc main_v15)
    _ = W4 m ρ c (Proc.devRef .tc main_v15) := (by host_keep hostOps1)
    _ = W3 m ρ c (Proc.devRef .tc main_v15) := ((W4_arr m ρ c 2).trans (((dat0 (V3 m ρ) c).arrAt_in 2 rfl _).trans (A_eq0 (V3 m ρ) c 2)))

theorem keep_v15_6 (c : Dev nD) : W6 m ρ c (Proc.devRef .tc main_v15) = W3 m ρ c (Proc.devRef .tc main_v15) :=
  calc W6 m ρ c (Proc.devRef .tc main_v15)
    _ = W5 m ρ c (Proc.devRef .tc main_v15) := ((W6_arr m ρ c 1).trans (((dat1 (V5 m ρ) c).arrAt_in 1 rfl _).trans (A_eq1 (V5 m ρ) c 1)))
    _ = W4 m ρ c (Proc.devRef .tc main_v15) := (by host_keep hostOps1)
    _ = W3 m ρ c (Proc.devRef .tc main_v15) := ((W4_arr m ρ c 2).trans (((dat0 (V3 m ρ) c).arrAt_in 2 rfl _).trans (A_eq0 (V3 m ρ) c 2)))

theorem keep_v15_8 (c : Dev nD) : W8 m ρ c (Proc.devRef .tc main_v15) = W3 m ρ c (Proc.devRef .tc main_v15) :=
  calc W8 m ρ c (Proc.devRef .tc main_v15)
    _ = W7 m ρ c (Proc.devRef .tc main_v15) := (by host_keep hostOps3)
    _ = W6 m ρ c (Proc.devRef .tc main_v15) := ((W7_arr m ρ c 2).trans (((dat2 (V6 m ρ) c).arrAt_in 2 rfl _).trans (A_eq2 (V6 m ρ) c 2)))
    _ = W5 m ρ c (Proc.devRef .tc main_v15) := ((W6_arr m ρ c 1).trans (((dat1 (V5 m ρ) c).arrAt_in 1 rfl _).trans (A_eq1 (V5 m ρ) c 1)))
    _ = W4 m ρ c (Proc.devRef .tc main_v15) := (by host_keep hostOps1)
    _ = W3 m ρ c (Proc.devRef .tc main_v15) := ((W4_arr m ρ c 2).trans (((dat0 (V3 m ρ) c).arrAt_in 2 rfl _).trans (A_eq0 (V3 m ρ) c 2)))

theorem keep_v3_4 (c : Dev nD) : W4 m ρ c (Proc.devRef .tc main_v3) = W3 m ρ c (Proc.devRef .tc main_v3) :=
  calc W4 m ρ c (Proc.devRef .tc main_v3)
    _ = W3 m ρ c (Proc.devRef .tc main_v3) := (W4_of_ne m ρ c main_v3 (by decide))

theorem keep_v6_4 (c : Dev nD) : W4 m ρ c (Proc.devRef .tc main_v6) = W3 m ρ c (Proc.devRef .tc main_v6) :=
  calc W4 m ρ c (Proc.devRef .tc main_v6)
    _ = W3 m ρ c (Proc.devRef .tc main_v6) := (W4_of_ne m ρ c main_v6 (by decide))

theorem keep_v3_7 (c : Dev nD) : W7 m ρ c (Proc.devRef .tc main_v3) = W3 m ρ c (Proc.devRef .tc main_v3) :=
  calc W7 m ρ c (Proc.devRef .tc main_v3)
    _ = W6 m ρ c (Proc.devRef .tc main_v3) := (W7_of_ne m ρ c main_v3 (by decide))
    _ = W5 m ρ c (Proc.devRef .tc main_v3) := (W6_of_ne m ρ c main_v3 (by decide))
    _ = W4 m ρ c (Proc.devRef .tc main_v3) := (by host_keep hostOps1)
    _ = W3 m ρ c (Proc.devRef .tc main_v3) := (W4_of_ne m ρ c main_v3 (by decide))

theorem keep_v6_7 (c : Dev nD) : W7 m ρ c (Proc.devRef .tc main_v6) = W3 m ρ c (Proc.devRef .tc main_v6) :=
  calc W7 m ρ c (Proc.devRef .tc main_v6)
    _ = W6 m ρ c (Proc.devRef .tc main_v6) := (W7_of_ne m ρ c main_v6 (by decide))
    _ = W5 m ρ c (Proc.devRef .tc main_v6) := (W6_of_ne m ρ c main_v6 (by decide))
    _ = W4 m ρ c (Proc.devRef .tc main_v6) := (by host_keep hostOps1)
    _ = W3 m ρ c (Proc.devRef .tc main_v6) := (W4_of_ne m ρ c main_v6 (by decide))

/-! ## The stages, as functions of the argument arrays -/

/-- The rows of `hs` gathered at the source nodes and summed into the destination nodes. -/
abbrev aggK (c : Dev nD) (hs : FVec Ideal S100000x128 .f32) : FVec Ideal S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIds m c))
    (Host.gather gather_S100000x128_S1700000x1_S1700000x128_1_0_n_n_0_1_1128 hs (broadcastInDim S1700000x1 ![0] bcast_S1700000_S1700000x1_0 (wsrcK m c)))
/-- The first layer's node features. -/
abbrev h1K (c : Dev nD) : FVec Ideal S100000x128 .f32 :=
  scaleBiasRelu (M := 100000) (N := 128) (aggK m c (scaledProduct (M := 100000) (K := 320) (N := 128) (m ((c : Thread nD τ).loc main_arg0)) (m ((c : Thread nD τ).loc main_arg3)) (dcolK m c))) (dcolK m c)
    (shapeCast S1x128 (m ((c : Thread nD τ).loc main_arg4)) shapeCasts_S128_S1x128)
/-- The second layer's. -/
abbrev h2K (c : Dev nD) : FVec Ideal S100000x128 .f32 :=
  scaleBiasRelu (M := 100000) (N := 128) (aggK m c (scaledProduct (M := 100000) (K := 128) (N := 128) (h1K m c) (m ((c : Thread nD τ).loc main_arg5)) (dcolK m c))) (dcolK m c)
    (shapeCast S1x128 (m ((c : Thread nD τ).loc main_arg6)) shapeCasts_S128_S1x128)
/-- The mean of node features over each graph's nodes (the sum over the nodes of a graph divided by their number, at least one). -/
abbrev poolK (c : Dev nD) (h : FVec Ideal S100000x128 .f32) : FVec Ideal S512x128 .f32 :=
  Host.divf (Host.scatterAdd scatter_S512x128_S100000x1_S100000x128_1_0_0_1 (broadcastInDim S512x128 ![] bcast_S_S512x128 (constant S_ .f32 0x00000000#32)) (broadcastInDim S100000x1 ![0] bcast_S100000_S100000x1_0 (m ((c : Thread nD τ).loc main_arg2))) h)
    (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 (m ((c : Thread nD τ).loc main_arg2))) (broadcastInDim S100000 ![] bcast_S_S100000 (constant S_ .f32 0x3F800000#32))) (broadcastInDim S512 ![] bcast_S_S512 (constant S_ .f32 0x3F800000#32)))))
/-- The program's result. -/
abbrev outK (c : Dev nD) : FVec Ideal S512x2 .f32 :=
  productBias (M := 512) (K := 128) (N := 2) (poolK m c (h2K m c)) (m ((c : Thread nD τ).loc main_arg7)) (shapeCast S1x2 (m ((c : Thread nD τ).loc main_arg8)) shapeCasts_S2_S1x2)

/-! ## What each boundary holds -/

/-- Region 0 leaves the projected, pre-scaled features. -/
theorem val4_v16 (c : Dev nD) : W4 m ρ c (Proc.devRef .tc main_v16)
    = scaledProduct (M := 100000) (K := 320) (N := 128) (m ((c : Thread nD τ).loc main_arg0)) (m ((c : Thread nD τ).loc main_arg3)) (dcolK m c) := by
  refine (W4_arr m ρ c 3).trans ((final0 (V3 m ρ) c).trans ?_)
  show scaledProduct (M := 100000) (K := 320) (N := 128) (W3 m ρ c (Proc.devRef .tc main_arg0)) (W3 m ρ c (Proc.devRef .tc main_arg3)) (W3 m ρ c (Proc.devRef .tc main_v15)) = _
  rw [keep_arg0_3, keep_arg3_3, val3_v15]

set_option maxHeartbeats 4000000 in
theorem val5_v26 (c : Dev nD) : W5 m ρ c (Proc.devRef .tc main_v26)
    = aggK m c (scaledProduct (M := 100000) (K := 320) (N := 128) (m ((c : Thread nD τ).loc main_arg0)) (m ((c : Thread nD τ).loc main_arg3)) (dcolK m c)) := by
  show StableHlo.after hostOps1 (W4 m ρ c) (Proc.devRef .tc main_v26) = _
  simp only [hostOps1]
  after_results
  rw [val4_v16, keep_v6_4, keep_v3_4, val3_v6, val3_v3]
set_option maxHeartbeats 4000000 in
theorem val5_v27 (c : Dev nD) : W5 m ρ c (Proc.devRef .tc main_v27) = shapeCast S1x128 (m ((c : Thread nD τ).loc main_arg4)) shapeCasts_S128_S1x128 := by
  show StableHlo.after hostOps1 (W4 m ρ c) (Proc.devRef .tc main_v27) = _
  simp only [hostOps1]
  after_results
  rw [keep_arg4_4]
  rfl

/-- Region 1 leaves the first layer's features. -/
theorem val6_v28 (c : Dev nD) : W6 m ρ c (Proc.devRef .tc main_v28) = h1K m c := by
  refine (W6_arr m ρ c 3).trans ((final1 (V5 m ρ) c).trans ?_)
  show scaleBiasRelu (M := 100000) (N := 128) (W5 m ρ c (Proc.devRef .tc main_v26)) (W5 m ρ c (Proc.devRef .tc main_v15)) (W5 m ρ c (Proc.devRef .tc main_v27)) = _
  rw [val5_v26, keep_v15_5, val3_v15, val5_v27]

/-- Region 2 leaves them projected and pre-scaled. -/
theorem val7_v29 (c : Dev nD) : W7 m ρ c (Proc.devRef .tc main_v29)
    = scaledProduct (M := 100000) (K := 128) (N := 128) (h1K m c) (m ((c : Thread nD τ).loc main_arg5)) (dcolK m c) := by
  refine (W7_arr m ρ c 3).trans ((final2 (V6 m ρ) c).trans ?_)
  show scaledProduct (M := 100000) (K := 128) (N := 128) (W6 m ρ c (Proc.devRef .tc main_v28)) (W6 m ρ c (Proc.devRef .tc main_arg5)) (W6 m ρ c (Proc.devRef .tc main_v15)) = _
  rw [val6_v28, keep_arg5_6, keep_v15_6, val3_v15]

set_option maxHeartbeats 4000000 in
theorem val8_v39 (c : Dev nD) : W8 m ρ c (Proc.devRef .tc main_v39)
    = aggK m c (scaledProduct (M := 100000) (K := 128) (N := 128) (h1K m c) (m ((c : Thread nD τ).loc main_arg5)) (dcolK m c)) := by
  show StableHlo.after hostOps3 (W7 m ρ c) (Proc.devRef .tc main_v39) = _
  simp only [hostOps3]
  after_results
  rw [val7_v29, keep_v6_7, keep_v3_7, val3_v6, val3_v3]
set_option maxHeartbeats 4000000 in
theorem val8_v40 (c : Dev nD) : W8 m ρ c (Proc.devRef .tc main_v40) = shapeCast S1x128 (m ((c : Thread nD τ).loc main_arg6)) shapeCasts_S128_S1x128 := by
  show StableHlo.after hostOps3 (W7 m ρ c) (Proc.devRef .tc main_v40) = _
  simp only [hostOps3]
  after_results
  rw [keep_arg6_7]
  rfl

/-- Region 3 leaves the second layer's features. -/
theorem val9_v41 (c : Dev nD) : W9 m ρ c (Proc.devRef .tc main_v41) = h2K m c := by
  refine (W9_arr m ρ c 3).trans ((final3 (V8 m ρ) c).trans ?_)
  show scaleBiasRelu (M := 100000) (N := 128) (W8 m ρ c (Proc.devRef .tc main_v39)) (W8 m ρ c (Proc.devRef .tc main_v15)) (W8 m ρ c (Proc.devRef .tc main_v40)) = _
  rw [val8_v39, keep_v15_8, val3_v15, val8_v40]

set_option maxHeartbeats 4000000 in
theorem val10_v53 (c : Dev nD) : W10 m ρ c (Proc.devRef .tc main_v53) = poolK m c (h2K m c) := by
  show StableHlo.after hostOps4 (W9 m ρ c) (Proc.devRef .tc main_v53) = _
  simp only [hostOps4]
  after_results
  rw [val9_v41, keep_arg2_9]
set_option maxHeartbeats 4000000 in
theorem val10_v54 (c : Dev nD) : W10 m ρ c (Proc.devRef .tc main_v54) = shapeCast S1x2 (m ((c : Thread nD τ).loc main_arg8)) shapeCasts_S2_S1x2 := by
  show StableHlo.after hostOps4 (W9 m ρ c) (Proc.devRef .tc main_v54) = _
  simp only [hostOps4]
  after_results
  rw [keep_arg8_9]
  rfl

/-- Region 4 leaves the result. -/
theorem val11_v55 (c : Dev nD) : W11 m ρ c (Proc.devRef .tc main_v55) = outK m c := by
  refine (W11_arr m ρ c 3).trans ((final4 (V10 m ρ) c).trans ?_)
  show productBias (M := 512) (K := 128) (N := 2) (W10 m ρ c (Proc.devRef .tc main_v53)) (W10 m ρ c (Proc.devRef .tc main_arg7)) (W10 m ρ c (Proc.devRef .tc main_v54)) = _
  rw [val10_v53, keep_arg7_10, val10_v54]

/-- The run, with the result named as a function of the argument arrays. -/
theorem run_value : θ_run defs (onTc (τ := τ) (main (F := Ideal))) ⟨m, fun _ => 0, ρ⟩ (fun r => ∀ c : Dev nD,
      r.2.mem ((c.tc : Thread nD τ).loc main_v55) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (val11_v55 m ρ c), (h c).2⟩) (run_result m ρ)

end Cert.KernelIdeal.RunValue

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.LibRowScatterSum.lean ====
/-
  Adding rows into a table at a column of start indices, read at an index as a sum over rows.

  For a table `z : [N, C]`, start indices `idx : [R, 1]` and updates `u : [R, C]`, the accumulating scatter with one
  inserted row axis and one window axis of width `C` gives, at table entry `(p, q)` on the extended reals,
  `z[p, q] + ∑ r ∈ landing idx p, u[r, q]`, where `landing idx p` is the set of update rows whose start index, read
  as a signed integer, is exactly `p` (an out-of-range start drops its row). The set of rows does not depend on the
  width `C`: scatters of different widths by the same column of start indices add over the same rows.
-/
import Idealize.ShloMosaic.Lib.ValueIdx
import Idealize.ShloMosaic.PureOps.Ideal
import proofs.«151348_j40664750358926_2_alg».proof.Proof.LibRowScatter

noncomputable section

namespace Cert.Lib.RowScatterSum

open Idealize.ShloMosaic Idealize.ShloMosaic.ValueIdx Cert.Lib.RowScatter

/-- The update rows that land on table row `p`: those whose start index, read signed, is `p`. -/
def landing {R w : Nat} (N : Nat) (idx : IVec ⟨2, ![R, 1]⟩ w) (p : Fin N) : Finset (Fin R) :=
  Finset.univ.filter (fun r => (idx (ix2 r 0)).toInt = (p.val : Int))

/-- Update entry `(r, k)` lands on table entry `(p, q)` exactly when row `r`'s start index is `p` and `k = q`. -/
theorem lands_iff {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C) :
    (rowScat N R C wf).resultIdx? (ix2 r k) idx = some (ix2 p q) ↔ ((idx (ix2 r 0)).toInt = (p.val : Int) ∧ k = q) := by
  constructor
  · exact lands wf idx r k p q
  · rintro ⟨h0, rfl⟩
    have hp := p.isLt
    have hk := k.isLt
    have hb : ∀ a : Fin 2, 0 ≤ (rowScat N R C wf).start (ix2 r k) idx a + ((rowScat N R C wf).window (ix2 r k) a : Int)
        ∧ (rowScat N R C wf).start (ix2 r k) idx a + ((rowScat N R C wf).window (ix2 r k) a : Int) < ((⟨2, ![N, C]⟩ : Shape).size a : Int) := by
      refine Fin.forall_fin_two.mpr ⟨?_, ?_⟩
      · rw [start_row, window_row]
        show 0 ≤ (idx (ix2 r 0)).toInt + ((0 : Nat) : Int) ∧ (idx (ix2 r 0)).toInt + ((0 : Nat) : Int) < (N : Int)
        omega
      · rw [start_col, window_col]
        show 0 ≤ (0 : Int) + (k.val : Int) ∧ (0 : Int) + (k.val : Int) < (C : Int)
        omega
    unfold ScatterDims.resultIdx?
    rw [dif_pos hb]
    refine congrArg some (funext fun a => Fin.ext ?_)
    revert a
    refine Fin.forall_fin_two.mpr ⟨?_, ?_⟩
    · show ((rowScat N R C wf).start (ix2 r k) idx (0 : Fin 2) + ((rowScat N R C wf).window (ix2 r k) (0 : Fin 2) : Int)).toNat = p.val
      rw [start_row, window_row]
      omega
    · show ((rowScat N R C wf).start (ix2 r k) idx (1 : Fin 2) + ((rowScat N R C wf).window (ix2 r k) (1 : Fin 2) : Int)).toNat = k.val
      rw [start_col, window_col]
      omega

/-- The accumulating row scatter at `(p, q)`: the table's entry plus the updates' column `q` summed over the rows
    that land on `p`. -/
theorem scatterAdd_rows_apply {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScat N R C wf)
    (z : FVec Ideal ⟨2, ![N, C]⟩ φ) (idx : IVec ⟨2, ![R, 1]⟩ w) (u : FVec Ideal ⟨2, ![R, C]⟩ φ) (p : Fin N) (q : Fin C) :
    Host.scatterAdd d z idx u (ix2 p q) = (z (ix2 p q) : EReal) + ∑ r ∈ landing N idx p, (u (ix2 r q) : EReal) := by
  subst hd
  show Ideal.hostScatterAdd (rowScat N R C wf) z idx u (ix2 p q) = _
  unfold Ideal.hostScatterAdd landing
  congr 1
  rw [Finset.sum_filter, sum_idx2, Finset.sum_filter]
  refine Finset.sum_congr rfl fun r _ => ?_
  by_cases h : (idx (ix2 r 0)).toInt = (p.val : Int)
  · rw [if_pos h]
    rw [Finset.sum_eq_single q]
    · rw [if_pos ((lands_iff wf idx r q p q).mpr ⟨h, rfl⟩)]
    · intro k _ hk
      rw [if_neg (fun hl => hk ((lands_iff wf idx r k p q).mp hl).2)]
    · intro hq
      exact absurd (Finset.mem_univ q) hq
  · rw [if_neg h]
    refine Finset.sum_eq_zero fun k _ => ?_
    rw [if_neg (fun hl => h ((lands_iff wf idx r k p q).mp hl).1)]

end Cert.Lib.RowScatterSum

end
-- ==== Proof.LibVecScatterSum.lean ====
/-
  Adding entries into a vector at a column of start indices, read at an index as a sum over update rows.

  For a vector `z : [N]`, start indices `idx : [R, 1]` and updates `u : [R]`, the accumulating scatter whose one operand
  axis is inserted (no window axis) sends update `r` to entry `idx[r, 0]` read as a signed integer and NOT clamped: an
  out-of-range start drops the update. So on the extended reals the result at `p` is `z[p] + ∑ r ∈ landing idx p, u[r]`,
  over the same set of rows as a scatter of whole rows by the same column.
-/
import Idealize.ShloMosaic.Lib.ValueIdx
import Idealize.ShloMosaic.PureOps.Ideal
import proofs.«151348_j40664750358926_2_alg».proof.Proof.LibRowScatterSum

noncomputable section

namespace Cert.Lib.VecScatterSum

open Idealize.ShloMosaic Idealize.ShloMosaic.ValueIdx Cert.Lib.RowScatterSum

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of scattering entries into a vector: no window axis, the operand's one axis inserted and
    addressed by the start index, the index vector along axis 1 of the start indices. -/
abbrev vecScat (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window starts at the start index of the update, read signed. -/
theorem start_eq {N R w : Nat} (wf : ScatterDims.WF ⟨1, ![N]⟩ ⟨2, ![R, 1]⟩ ⟨1, ![R]⟩ [] [0] [0] 1)
    (idx : IVec ⟨2, ![R, 1]⟩ w) (r : Fin R) :
    (vecScat N R wf).start (ix1 r) idx (0 : Fin 1) = (idx (ix2 r 0)).toInt := by
  unfold ScatterDims.start
  rw [dif_pos (show (0 : Fin 1) ∈ (vecScat N R wf).scatterDimsToOperandDims from List.mem_singleton.mpr rfl)]
  have hsi : (vecScat N R wf).siIdx (ix1 r) ⟨List.idxOf (0 : Fin 1) (vecScat N R wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- There is no window: its coordinate is `0`. -/
theorem window_eq {N R : Nat} (wf : ScatterDims.WF ⟨1, ![N]⟩ ⟨2, ![R, 1]⟩ ⟨1, ![R]⟩ [] [0] [0] 1)
    (j : (⟨1, ![R]⟩ : Shape).Idx) : (vecScat N R wf).window j (0 : Fin 1) = 0 := by
  unfold ScatterDims.window
  rw [dif_neg (show ¬((0 : Fin 1) ∈ (vecScat N R wf).sKept) from fun h => by have := (List.mem_filter.mp h).2; simp at this)]

/-- Update `r` lands on entry `p` exactly when its start index is `p`. -/
theorem lands_iff {N R w : Nat} (wf : ScatterDims.WF ⟨1, ![N]⟩ ⟨2, ![R, 1]⟩ ⟨1, ![R]⟩ [] [0] [0] 1)
    (idx : IVec ⟨2, ![R, 1]⟩ w) (r : Fin R) (p : Fin N) :
    (vecScat N R wf).resultIdx? (ix1 r) idx = some (ix1 p) ↔ (idx (ix2 r 0)).toInt = (p.val : Int) := by
  constructor
  · intro h
    unfold ScatterDims.resultIdx? at h
    split at h
    · rename_i hb
      have h' := Option.some.inj h
      have e0 : ((vecScat N R wf).start (ix1 r) idx (0 : Fin 1) + ((vecScat N R wf).window (ix1 r) (0 : Fin 1) : Int)).toNat = p.val :=
        congrArg Fin.val (congrFun h' (0 : Fin 1))
      have b0 := (hb (0 : Fin 1)).1
      rw [start_eq, window_eq] at e0 b0
      omega
    · exact absurd h (by simp)
  · intro h0
    have hp := p.isLt
    have hb : ∀ a : Fin 1, 0 ≤ (vecScat N R wf).start (ix1 r) idx a + ((vecScat N R wf).window (ix1 r) a : Int)
        ∧ (vecScat N R wf).start (ix1 r) idx a + ((vecScat N R wf).window (ix1 r) a : Int) < ((⟨1, ![N]⟩ : Shape).size a : Int) := by
      intro a
      obtain rfl : a = 0 := Subsingleton.elim _ _
      rw [start_eq, window_eq]
      show 0 ≤ (idx (ix2 r 0)).toInt + ((0 : Nat) : Int) ∧ (idx (ix2 r 0)).toInt + ((0 : Nat) : Int) < (N : Int)
      omega
    unfold ScatterDims.resultIdx?
    rw [dif_pos hb]
    refine congrArg some (funext fun a => Fin.ext ?_)
    obtain rfl : a = 0 := Subsingleton.elim _ _
    show ((vecScat N R wf).start (ix1 r) idx (0 : Fin 1) + ((vecScat N R wf).window (ix1 r) (0 : Fin 1) : Int)).toNat = p.val
    rw [start_eq, window_eq]
    omega

/-- The accumulating scatter into a vector at `p`: the vector's entry plus the updates summed over the rows that land
    on `p`. -/
theorem scatterAdd_vec_apply {N R w : Nat} {φ : FTy}
    (d : ScatterDims ⟨1, ![N]⟩ ⟨2, ![R, 1]⟩ ⟨1, ![R]⟩)
    (wf : ScatterDims.WF ⟨1, ![N]⟩ ⟨2, ![R, 1]⟩ ⟨1, ![R]⟩ [] [0] [0] 1) (hd : d = vecScat N R wf)
    (z : FVec Ideal ⟨1, ![N]⟩ φ) (idx : IVec ⟨2, ![R, 1]⟩ w) (u : FVec Ideal ⟨1, ![R]⟩ φ) (p : Fin N) :
    Host.scatterAdd d z idx u (ix1 p) = (z (ix1 p) : EReal) + ∑ r ∈ landing N idx p, (u (ix1 r) : EReal) := by
  subst hd
  show Ideal.hostScatterAdd (vecScat N R wf) z idx u (ix1 p) = _
  unfold Ideal.hostScatterAdd landing
  congr 1
  rw [Finset.sum_filter, sum_idx1, Finset.sum_filter]
  refine Finset.sum_congr rfl fun r _ => ?_
  by_cases h : (idx (ix2 r 0)).toInt = (p.val : Int)
  · rw [if_pos h, if_pos ((lands_iff wf idx r p).mpr h)]
  · rw [if_neg h, if_neg (fun hl => h ((lands_iff wf idx r p).mp hl))]

end Cert.Lib.VecScatterSum

end
-- ==== Proof.DegreeScale.lean ====
/-
  The inverse square-root degree of a node is a non-negative real number.

  The degree vector is the accumulating scatter of a vector of ones into a vector of zeros at the column of target
  nodes: at node n it is 0 + (the sum of 1 over the edges that land on n), the number k of such edges as a real. The
  scale is "1 / √degree where the degree is positive, else 0": for k = 0 the comparison 0 < degree fails and the value is
  the fill 0; for k > 0 it is the real (√k)⁻¹ ≥ 0. Also here: the two constant words of this computation, the f32
  patterns of 1.0 and of 0.0, read as extended reals.
-/
import Idealize.ShloMosaic.Lib.ValueIdx
import Idealize.ShloMosaic.PureOps.Ideal
import Idealize.ShloMosaic.PureOps.Ideal.Laws
import proofs.«151348_j40664750358926_2_alg».proof.Proof.LibVecScatterSum

noncomputable section

namespace Cert.GraphConv

open Idealize.ShloMosaic Idealize.ShloMosaic.ValueIdx Cert.Lib.RowScatterSum Cert.Lib.VecScatterSum

/-- The f32 pattern of 1.0 is the extended real 1. -/
theorem ofBits_f32_one : Ideal.ofBits .f32 0x3F800000#32 = 1 := by
  simp [Ideal.ofBits, Ideal.ieee, -EReal.coe_mul]; norm_num

/-- The f32 pattern of 0.0 is the extended real 0. -/
theorem ofBits_f32_zero : Ideal.ofBits .f32 0x00000000#32 = 0 := Ideal.ofBits_zero_f32

/-- A finite sum of ones is the number of its terms, as a real. -/
theorem sum_ones_eq_card {ι : Type*} (L : Finset ι) (u : ι → EReal) (hu : ∀ e, u e = 1) :
    ∑ e ∈ L, u e = (((L.card : ℕ) : ℝ) : EReal) := by
  classical
  induction L using Finset.induction_on with
  | empty => simp
  | insert a s ha ih =>
    rw [Finset.sum_insert ha, ih, hu a, Finset.card_insert_of_notMem ha, Nat.cast_add, Nat.cast_one, EReal.coe_add,
      EReal.coe_one, add_comm]

/-- "1 / √x where 0 < x, else 0" at a natural number x = k is a non-negative real. -/
theorem rsqrtOrZero_nat (k : ℕ) :
    ∃ r : ℝ, 0 ≤ r ∧ Scalar.select (Ideal.cmp .ogt (((k : ℝ) : EReal)) 0) (Ideal.rsqrt (((k : ℝ) : EReal))) (0 : EReal)
      = ((r : ℝ) : EReal) := by
  rcases Nat.eq_zero_or_pos k with hk | hk
  · subst hk
    refine ⟨0, le_refl _, ?_⟩
    have hc : Ideal.cmp .ogt (((0 : ℕ) : ℝ) : EReal) 0 = 0#1 := by
      unfold Ideal.cmp
      simp
    rw [hc, select_zero]
    rfl
  · have hpos : (0 : ℝ) < (k : ℝ) := Nat.cast_pos.mpr hk
    refine ⟨(Real.sqrt (k : ℝ))⁻¹, inv_nonneg.mpr (Real.sqrt_nonneg _), ?_⟩
    have hc : Ideal.cmp .ogt (((k : ℝ) : EReal)) 0 = 1#1 := by
      have hlt : (0 : EReal) < ((k : ℝ) : EReal) := by exact_mod_cast hpos
      show BitVec.ofBool (decide ((0 : EReal) < ((k : ℝ) : EReal))) = 1#1
      rw [decide_eq_true hlt]
      rfl
    rw [hc, select_one, Ideal.rsqrt_coe, if_neg (not_lt.mpr hpos.le), if_neg hpos.ne']

/-- The inverse square-root degree at node n is a non-negative real. -/
theorem degreeScale_nonneg_real (dV : ScatterDims ⟨1, ![100000]⟩ ⟨2, ![1700000, 1]⟩ ⟨1, ![1700000]⟩)
    (wfV : ScatterDims.WF ⟨1, ![100000]⟩ ⟨2, ![1700000, 1]⟩ ⟨1, ![1700000]⟩ [] [0] [0] 1)
    (hV : dV = vecScat 100000 1700000 wfV)
    (Z zeros fill : FVec Ideal ⟨1, ![100000]⟩ .f32) (hZ : ∀ j, Z j = 0) (hz : ∀ j, zeros j = 0) (hf : ∀ j, fill j = 0)
    (ones : FVec Ideal ⟨1, ![1700000]⟩ .f32) (h1 : ∀ j, ones j = 1) (idx : IVec ⟨2, ![1700000, 1]⟩ 32) (n : Fin 100000) :
    ∃ r : ℝ, 0 ≤ r ∧ select (cmpf (F := Ideal) .ogt (Host.scatterAdd dV Z idx ones) zeros)
        (Host.rsqrt (Host.scatterAdd dV Z idx ones)) fill (ix1 n) = ((r : ℝ) : EReal) := by
  have hdeg : Host.scatterAdd dV Z idx ones (ix1 n) = ((((landing 100000 idx n).card : ℕ) : ℝ) : EReal) := by
    rw [scatterAdd_vec_apply dV wfV hV Z idx ones n, hZ, zero_add]
    exact sum_ones_eq_card _ (fun r => ones (ix1 r)) (fun r => h1 _)
  obtain ⟨r, hr, he⟩ := rsqrtOrZero_nat (landing 100000 idx n).card
  refine ⟨r, hr, ?_⟩
  rw [← he, ← hdeg]
  show Scalar.select (Ideal.cmp .ogt (Host.scatterAdd dV Z idx ones (ix1 n)) (zeros (ix1 n)))
      (Ideal.rsqrt (Host.scatterAdd dV Z idx ones (ix1 n))) (fill (ix1 n)) = _
  rw [hz, hf]

end Cert.GraphConv

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«151348_j40664750358926_2_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.AggregationLaw.lean ====
/-
  One graph-convolution layer: scaling the gathered rows before the aggregation and the aggregated rows after it is
  the aggregation of the rows weighted edge by edge.

  Pure law: for a non-negative real c, a finite set L and families a, s of extended reals,
    (∑ e ∈ L, a e * s e) * c = ∑ e ∈ L, a e * (s e * c)
  (a non-negative real factor distributes over an extended-real sum; multiplication is associative).

  Array form, for N = 100000 nodes, E = 1700000 edges and C = 128 features. With dinv the inverse square-root degree,
  a non-negative real at every node, the pre-scaled table hs[n, f] = hh[n, f] * dinv[n], source and target node of edge e
  src[e] and dst[e] (a negative source index wrapped by + N):
    max ((∑ over the edges e landing on d of hs[src e, f]) * dinv[d] + bias[f], 0)
      = max ((∑ over the edges e landing on d of hh[src e, f] * (dinv[src e] * dinv[dst e])) + bias[f], 0).
  The two sums are over the same edges; an edge that lands on d has target index d ≥ 0, so the wrap leaves it alone and
  dinv[dst e] = dinv[d], the non-negative real the pure law takes out of the sum.
-/
import Idealize.ShloMosaic.Lib.Pipeline.Value
import Idealize.ShloMosaic.Lib.ValueIdx
import Idealize.ShloMosaic.PureOps.Ideal
import Idealize.ShloMosaic.PureOps.Ideal.Laws
import proofs.«151348_j40664750358926_2_alg».proof.Proof.LibRowGather
import proofs.«151348_j40664750358926_2_alg».proof.Proof.LibRowScatter
import proofs.«151348_j40664750358926_2_alg».proof.Proof.LibRowScatterSum
import proofs.«151348_j40664750358926_2_alg».proof.Proof.LibColumnTake
import proofs.«151348_j40664750358926_2_alg».proof.Proof.LibBcastChain
import proofs.«151348_j40664750358926_2_alg».proof.Proof.ScaledLayers

noncomputable section

namespace Cert.GraphConv

open Idealize.ShloMosaic Idealize.ShloMosaic.ValueIdx Cert.Lib.RowGather Cert.Lib.RowScatter Cert.Lib.RowScatterSum
  Cert.Lib.ColumnTake Cert.Lib.BcastChain

/-! ## The pure law -/

/-- A non-negative real factor goes inside a finite sum of products, onto the second factors. -/
theorem sum_mul_nonneg_real {ι : Type*} (L : Finset ι) (a s : ι → EReal) (r : ℝ) (hr : 0 ≤ r) :
    (∑ e ∈ L, a e * s e) * ((r : ℝ) : EReal) = ∑ e ∈ L, a e * (s e * ((r : ℝ) : EReal)) := by
  classical
  have h0 : (0 : EReal) ≤ ((r : ℝ) : EReal) := EReal.coe_nonneg.mpr hr
  induction L using Finset.induction_on with
  | empty => rw [Finset.sum_empty, Finset.sum_empty, zero_mul]
  | insert x t hx ih =>
    rw [Finset.sum_insert hx, Finset.sum_insert hx,
      EReal.right_distrib_of_nonneg_of_ne_top h0 (EReal.coe_ne_top r), ih, mul_assoc]

/-! ## Index words: the column of an index vector, and the wrap of a negative index -/

/-- An index vector [E] as the column [E, 1] of start indices. -/
abbrev col (hcol : (⟨1, ![1700000]⟩ : Shape).BroadcastsInDim ⟨2, ![1700000, 1]⟩ ![0]) (v : IVec ⟨1, ![1700000]⟩ 32) :
    IVec ⟨2, ![1700000, 1]⟩ 32 :=
  broadcastInDim ⟨2, ![1700000, 1]⟩ ![0] hcol v

/-- The wrap of a negative index: v < 0 ? v + N : v, entry by entry. -/
abbrev wrap (hsc : (⟨0, ![]⟩ : Shape).BroadcastsInDim ⟨1, ![1700000]⟩ ![]) (v : IVec ⟨1, ![1700000]⟩ 32) :
    IVec ⟨1, ![1700000]⟩ 32 :=
  select (cmpi .slt v (broadcastInDim ⟨1, ![1700000]⟩ ![] hsc (constantI ⟨0, ![]⟩ 32 0#32)))
    (addi v (broadcastInDim ⟨1, ![1700000]⟩ ![] hsc (constantI ⟨0, ![]⟩ 32 100000#32))) v

/-- The column's entry (e, 0) is the vector's entry e. -/
theorem col_apply (hcol : (⟨1, ![1700000]⟩ : Shape).BroadcastsInDim ⟨2, ![1700000, 1]⟩ ![0])
    (v : IVec ⟨1, ![1700000]⟩ 32) (e : Fin 1700000) : col hcol v (ix2 e (0 : Fin 1)) = v (ix1 e) :=
  broadcastInDim_apply ![0] hcol v (ix2 e (0 : Fin 1)) (ix1 e) (fun a => by
    match a with
    | ⟨0, _⟩ =>
      show e.val = if (1700000 : ℕ) = 1 then 0 else e.val
      rw [if_neg (by norm_num)])

/-- The wrap leaves a non-negative index alone. -/
theorem wrap_apply_of_nonneg (hsc : (⟨0, ![]⟩ : Shape).BroadcastsInDim ⟨1, ![1700000]⟩ ![])
    (v : IVec ⟨1, ![1700000]⟩ 32) (e : Fin 1700000) (h : 0 ≤ (v (ix1 e)).toInt) : wrap hsc v (ix1 e) = v (ix1 e) := by
  show Scalar.select (IntOp.cmpi .slt (v (ix1 e)) (broadcastInDim ⟨1, ![1700000]⟩ ![] hsc (constantI ⟨0, ![]⟩ 32 0#32) (ix1 e)))
    (IntOp.addi (v (ix1 e)) (broadcastInDim ⟨1, ![1700000]⟩ ![] hsc (constantI ⟨0, ![]⟩ 32 100000#32) (ix1 e))) (v (ix1 e)) = _
  rw [overAll_apply (constantI ⟨0, ![]⟩ 32 0#32) ![] hsc (ix1 e)]
  have hc : IntOp.cmpi .slt (v (ix1 e)) (constantI ⟨0, ![]⟩ 32 0#32 ix0) = 0#1 := by
    show BitVec.ofBool ((v (ix1 e)).slt 0#32) = 0#1
    rw [BitVec.slt_eq_decide, BitVec.toInt_zero, decide_eq_false (not_lt.mpr h)]
    rfl
  rw [hc, select_zero]

/-- A start index that reads d as a signed integer selects row d. -/
theorem rowOf_eq_of_toInt (hN : 0 < 100000) (b : BitVec 32) (d : Fin 100000) (h : b.toInt = (d.val : Int)) :
    rowOf 100000 hN b = d := by
  refine Fin.ext ?_
  show min b.toInt.toNat (100000 - 1) = d.val
  have := d.isLt
  omega

/-! ## The layer -/

/-- Pre-scaling the gathered rows and post-scaling the aggregated rows by the inverse square-root degree is the
    aggregation of the rows weighted edge by edge with the product of the two degrees' scales. -/
theorem layer_law
    (dS : ScatterDims ⟨2, ![100000, 128]⟩ ⟨2, ![1700000, 1]⟩ ⟨2, ![1700000, 128]⟩)
    (wfS : ScatterDims.WF ⟨2, ![100000, 128]⟩ ⟨2, ![1700000, 1]⟩ ⟨2, ![1700000, 128]⟩ [1] [0] [0] 1)
    (hS : dS = rowScat 100000 1700000 128 wfS)
    (dG : GatherDims ⟨2, ![100000, 128]⟩ ⟨2, ![1700000, 1]⟩ ⟨2, ![1700000, 128]⟩)
    (wfG : GatherDims.WF ⟨2, ![100000, 128]⟩ ⟨2, ![1700000, 1]⟩ ⟨2, ![1700000, 128]⟩ [1] [0] [] [0] [] 1 ![1, 128])
    (hG : dG = rowDims 100000 1700000 128 wfG)
    (dC : GatherDims ⟨1, ![100000]⟩ ⟨2, ![1700000, 1]⟩ ⟨1, ![1700000]⟩)
    (wfC : GatherDims.WF ⟨1, ![100000]⟩ ⟨2, ![1700000, 1]⟩ ⟨1, ![1700000]⟩ [] [0] [] [0] [] 1 ![1])
    (hC : dC = colDims 100000 1700000 wfC)
    (hcol : (⟨1, ![1700000]⟩ : Shape).BroadcastsInDim ⟨2, ![1700000, 1]⟩ ![0])
    (hspread : (⟨2, ![1700000, 1]⟩ : Shape).BroadcastsInDim ⟨2, ![1700000, 128]⟩ ![0, 1])
    (hrow : (⟨1, ![128]⟩ : Shape).BroadcastsInDim ⟨2, ![1, 128]⟩ ![1])
    (hrows : (⟨2, ![1, 128]⟩ : Shape).BroadcastsInDim ⟨2, ![100000, 128]⟩ ![0, 1])
    (hsc : (⟨0, ![]⟩ : Shape).BroadcastsInDim ⟨1, ![1700000]⟩ ![])
    (dinv : FVec Ideal ⟨1, ![100000]⟩ .f32)
    (hdinv : ∀ n : Fin 100000, ∃ r : ℝ, 0 ≤ r ∧ dinv (ix1 n) = ((r : ℝ) : EReal))
    (D2 : FVec Ideal ⟨2, ![100000, 1]⟩ .f32) (hD2 : ∀ n : Fin 100000, D2 (ix2 n (0 : Fin 1)) = dinv (ix1 n))
    (hs hh : FVec Ideal ⟨2, ![100000, 128]⟩ .f32)
    (hhs : ∀ (n : Fin 100000) (f : Fin 128), hs (ix2 n f) = hh (ix2 n f) * D2 (ix2 n (0 : Fin 1)))
    (Z relu0 : FVec Ideal ⟨2, ![100000, 128]⟩ .f32) (hZ : ∀ j, Z j = 0) (hrelu0 : ∀ j, relu0 j = 0)
    (src dst : IVec ⟨1, ![1700000]⟩ 32) (bias : FVec Ideal ⟨1, ![128]⟩ .f32) (B2 : FVec Ideal ⟨2, ![1, 128]⟩ .f32)
    (hB2 : ∀ q : Fin 128, B2 (ix2 (0 : Fin 1) q) = bias (ix1 q)) :
    scaleBiasRelu (Host.scatterAdd dS Z (col hcol dst) (Host.gather dG hs (col hcol (wrap hsc src)))) D2 B2
      = maximumf (addf (Host.scatterAdd dS Z (col hcol dst) (mulf (Host.gather dG hh (col hcol (wrap hsc src)))
            (broadcastInDim ⟨2, ![1700000, 128]⟩ ![0, 1] hspread (broadcastInDim ⟨2, ![1700000, 1]⟩ ![0] hcol
              (mulf (Host.gather dC dinv (col hcol (wrap hsc src))) (Host.gather dC dinv (col hcol (wrap hsc dst))))))))
          (broadcastInDim ⟨2, ![100000, 128]⟩ ![0, 1] hrows (broadcastInDim ⟨2, ![1, 128]⟩ ![1] hrow bias))) relu0 := by
  have hN : 0 < 100000 := by norm_num
  subst hG hC
  funext j
  obtain ⟨d, f, rfl⟩ : ∃ (d : Fin 100000) (f : Fin 128), j = ix2 d f := ⟨j 0, j 1, eq_ix2 j⟩
  obtain ⟨r, hr, hdr⟩ := hdinv d
  -- the left side at (d, f)
  have hL : scaleBiasRelu (Host.scatterAdd dS Z (col hcol dst)
        (Host.gather (rowDims 100000 1700000 128 wfG) hs (col hcol (wrap hsc src)))) D2 B2 (ix2 d f)
      = max ((0 + ∑ e ∈ landing 100000 (col hcol dst) d,
          hh (ix2 (rowOf 100000 hN (wrap hsc src (ix1 e))) f) * dinv (ix1 (rowOf 100000 hN (wrap hsc src (ix1 e)))))
          * ((r : ℝ) : EReal) + bias (ix1 f)) 0 := by
    rw [scaleBiasRelu_apply]
    show max (Host.scatterAdd dS Z (col hcol dst)
        (Host.gather (rowDims 100000 1700000 128 wfG) hs (col hcol (wrap hsc src))) (ix2 d f) * D2 (ix2 d (0 : Fin 1))
        + B2 (ix2 (0 : Fin 1) f)) 0 = _
    rw [scatterAdd_rows_apply dS wfS hS, hZ, hD2, hB2, hdr]
    refine congrArg (fun t => max ((0 + t) * ((r : ℝ) : EReal) + bias (ix1 f)) 0) (Finset.sum_congr rfl fun e _ => ?_)
    rw [gather_rows_apply hN wfG, col_apply, hhs, hD2]
  -- the right side at (d, f)
  have hR : maximumf (addf (Host.scatterAdd dS Z (col hcol dst) (mulf (Host.gather (rowDims 100000 1700000 128 wfG) hh (col hcol (wrap hsc src)))
            (broadcastInDim ⟨2, ![1700000, 128]⟩ ![0, 1] hspread (broadcastInDim ⟨2, ![1700000, 1]⟩ ![0] hcol
              (mulf (Host.gather (colDims 100000 1700000 wfC) dinv (col hcol (wrap hsc src)))
                (Host.gather (colDims 100000 1700000 wfC) dinv (col hcol (wrap hsc dst))))))))
          (broadcastInDim ⟨2, ![100000, 128]⟩ ![0, 1] hrows (broadcastInDim ⟨2, ![1, 128]⟩ ![1] hrow bias))) relu0 (ix2 d f)
      = max ((0 + ∑ e ∈ landing 100000 (col hcol dst) d,
          hh (ix2 (rowOf 100000 hN (wrap hsc src (ix1 e))) f)
            * (dinv (ix1 (rowOf 100000 hN (wrap hsc src (ix1 e)))) * ((r : ℝ) : EReal))) + bias (ix1 f)) 0 := by
    rw [maximumf_apply, addf_apply, hrelu0, overRows_apply, scatterAdd_rows_apply dS wfS hS, hZ]
    refine congrArg (fun t => max ((0 + t) + bias (ix1 f)) 0) (Finset.sum_congr rfl fun e he => ?_)
    have hd : (dst (ix1 e)).toInt = (d.val : Int) := by
      have h' := (Finset.mem_filter.mp he).2
      rwa [col_apply] at h'
    rw [mulf_apply, overCols_apply, mulf_apply, gather_rows_apply hN wfG, gather_column_apply hN wfC,
      gather_column_apply hN wfC, col_apply, col_apply,
      wrap_apply_of_nonneg hsc dst e (by rw [hd]; exact Int.natCast_nonneg _),
      rowOf_eq_of_toInt hN _ d hd, hdr]
  rw [hL, hR, zero_add, zero_add, sum_mul_nonneg_real _ _ _ r hr]

end Cert.GraphConv

end
-- ==== Proof.NetworkLaw.lean ====
/-
  The whole network: two graph-convolution layers, a pooling, and a final linear map — the form in which a layer is
  "project, pre-scale, aggregate, post-scale, add the bias, rectify" equals the form in which it is "project, aggregate
  with per-edge weights, add the bias, rectify".

  Notation, at N = 100000 nodes, E = 1700000 edges, C = 128 features: the degree of a node is the number of edges
  that land on it (a scatter of ones into zeros); its scale is 1/√degree where the degree is positive and 0 elsewhere, a
  non-negative real; the scale as a column [N, 1] is what the row-scaled forms multiply by.

  * layer_host: one layer in the two forms is one array (the layer law with the projected table x · w, the scale column,
    and the bias row [1, C] read as the bias vector);
  * fc_law: the final linear map "product plus bias row" is the host's product plus the bias spread over the rows;
  * network_eq: both layers and the final map, around any pooling function applied to both sides alike.
-/
import Idealize.ShloMosaic.Lib.Pipeline.Value
import Idealize.ShloMosaic.Lib.ValueIdx
import Idealize.ShloMosaic.PureOps.Ideal
import Idealize.ShloMosaic.PureOps.Ideal.Laws
import proofs.«151348_j40664750358926_2_alg».proof.Proof.LibPlainDot
import proofs.«151348_j40664750358926_2_alg».proof.Proof.LibKeepdimsColumn
import proofs.«151348_j40664750358926_2_alg».proof.Proof.LibBcastChain
import proofs.«151348_j40664750358926_2_alg».proof.Proof.LibVecScatterSum
import proofs.«151348_j40664750358926_2_alg».proof.Proof.ScaledLayers
import proofs.«151348_j40664750358926_2_alg».proof.Proof.DegreeScale
import proofs.«151348_j40664750358926_2_alg».proof.Proof.AggregationLaw

noncomputable section

namespace Cert.GraphConv

open Idealize.ShloMosaic Idealize.ShloMosaic.ValueIdx Cert.Lib.PlainDot Cert.Lib.RowGather Cert.Lib.RowScatter
  Cert.Lib.RowScatterSum Cert.Lib.ColumnTake Cert.Lib.BcastChain Cert.Lib.VecScatterSum

/-! ## Small readings -/

/-- A vector [c] cast to the row [1, c] reads, at (0, q), its entry q. -/
theorem shapeCast_c_1c_apply {α : Type} {c : ℕ} (x : (⟨1, ![c]⟩ : Shape).Idx → α)
    (h : (⟨1, ![c]⟩ : Shape).ShapeCasts ⟨2, ![1, c]⟩) (q : Fin c) :
    shapeCast ⟨2, ![1, c]⟩ x h (ix2 (0 : Fin 1) q) = x (ix1 q) :=
  shapeCast_apply x h _ _ (by
    rw [Shape.rowMajor_val_two, Shape.rowMajor_val_one]
    show q.val = 0 * c + q.val
    omega)

/-- The scalar 0.0 and the scalar 1.0. -/
abbrev zeroS : FVec Ideal ⟨0, ![]⟩ .f32 := constant (F := Ideal) ⟨0, ![]⟩ .f32 0x00000000#32
abbrev oneS : FVec Ideal ⟨0, ![]⟩ .f32 := constant (F := Ideal) ⟨0, ![]⟩ .f32 0x3F800000#32

/-- The scalar 0.0 spread over any shape is 0 everywhere … -/
theorem spread_zero_apply {t : Shape} (h : (⟨0, ![]⟩ : Shape).BroadcastsInDim t ![]) (j : t.Idx) :
    broadcastInDim t ![] h zeroS j = (0 : EReal) :=
  (overAll_apply zeroS ![] h j).trans ofBits_f32_zero

/-- … and the scalar 1.0 is 1 everywhere. -/
theorem spread_one_apply {t : Shape} (h : (⟨0, ![]⟩ : Shape).BroadcastsInDim t ![]) (j : t.Idx) :
    broadcastInDim t ![] h oneS j = (1 : EReal) :=
  (overAll_apply oneS ![] h j).trans ofBits_f32_one

/-! ## The final linear map -/

/-- "Product plus bias row" is the host's product plus the bias vector spread over the rows. -/
theorem fc_law (dF : DotDims ⟨2, ![512, 128]⟩ ⟨2, ![128, 2]⟩ ⟨2, ![512, 2]⟩) (hF : dF = DotDims.plain 512 128 2)
    (hcastf : (⟨1, ![2]⟩ : Shape).ShapeCasts ⟨2, ![1, 2]⟩) (hrow2 : (⟨1, ![2]⟩ : Shape).BroadcastsInDim ⟨2, ![1, 2]⟩ ![1])
    (hrows2 : (⟨2, ![1, 2]⟩ : Shape).BroadcastsInDim ⟨2, ![512, 2]⟩ ![0, 1])
    (p : FVec Ideal ⟨2, ![512, 128]⟩ .f32) (w : FVec Ideal ⟨2, ![128, 2]⟩ .f32) (b : FVec Ideal ⟨1, ![2]⟩ .f32) :
    productBias p w (shapeCast ⟨2, ![1, 2]⟩ b hcastf)
      = addf (Host.dotGeneral dF none p w)
          (broadcastInDim ⟨2, ![512, 2]⟩ ![0, 1] hrows2 (broadcastInDim ⟨2, ![1, 2]⟩ ![1] hrow2 b)) := by
  have hdot : Host.dotGeneral dF none p w = rowsByCols p w := dotGeneral_eq dF hF none .single p w
  funext j
  obtain ⟨g, o, rfl⟩ : ∃ (g : Fin 512) (o : Fin 2), j = ix2 g o := ⟨j 0, j 1, eq_ix2 j⟩
  rw [addf_apply, overRows_apply, hdot, productBias_apply]
  show rowsByCols p w (ix2 g o) + shapeCast ⟨2, ![1, 2]⟩ b hcastf (ix2 (0 : Fin 1) o) = _
  rw [shapeCast_c_1c_apply]

/-! ## One layer -/

section Layer

variable
  (dS : ScatterDims ⟨2, ![100000, 128]⟩ ⟨2, ![1700000, 1]⟩ ⟨2, ![1700000, 128]⟩)
  (dG : GatherDims ⟨2, ![100000, 128]⟩ ⟨2, ![1700000, 1]⟩ ⟨2, ![1700000, 128]⟩)
  (dC : GatherDims ⟨1, ![100000]⟩ ⟨2, ![1700000, 1]⟩ ⟨1, ![1700000]⟩)
  (dV : ScatterDims ⟨1, ![100000]⟩ ⟨2, ![1700000, 1]⟩ ⟨1, ![1700000]⟩)
  (hcol : (⟨1, ![1700000]⟩ : Shape).BroadcastsInDim ⟨2, ![1700000, 1]⟩ ![0])
  (hspread : (⟨2, ![1700000, 1]⟩ : Shape).BroadcastsInDim ⟨2, ![1700000, 128]⟩ ![0, 1])
  (hrow : (⟨1, ![128]⟩ : Shape).BroadcastsInDim ⟨2, ![1, 128]⟩ ![1])
  (hrows : (⟨2, ![1, 128]⟩ : Shape).BroadcastsInDim ⟨2, ![100000, 128]⟩ ![0, 1])
  (hsc : (⟨0, ![]⟩ : Shape).BroadcastsInDim ⟨1, ![1700000]⟩ ![])
  (hz1 : (⟨0, ![]⟩ : Shape).BroadcastsInDim ⟨1, ![100000]⟩ ![])
  (hzN : (⟨0, ![]⟩ : Shape).BroadcastsInDim ⟨2, ![100000, 128]⟩ ![])
  (hcast1 : (⟨1, ![100000]⟩ : Shape).ShapeCasts ⟨2, ![100000, 1]⟩)
  (hcastb : (⟨1, ![128]⟩ : Shape).ShapeCasts ⟨2, ![1, 128]⟩)
  (src dst : IVec ⟨1, ![1700000]⟩ 32)

/-- The degree of every node: ones added into zeros at the edges' target nodes. -/
abbrev degree : FVec Ideal ⟨1, ![100000]⟩ .f32 :=
  Host.scatterAdd dV (broadcastInDim ⟨1, ![100000]⟩ ![] hz1 zeroS) (col hcol dst)
    (broadcastInDim ⟨1, ![1700000]⟩ ![] hsc oneS)

/-- The scale of every node: 1/√degree where the degree is positive, 0 elsewhere. -/
abbrev degScale : FVec Ideal ⟨1, ![100000]⟩ .f32 :=
  select (cmpf (F := Ideal) .ogt (degree dV hcol hsc hz1 dst) (broadcastInDim ⟨1, ![100000]⟩ ![] hz1 zeroS))
    (Host.rsqrt (degree dV hcol hsc hz1 dst)) (broadcastInDim ⟨1, ![100000]⟩ ![] hz1 (id zeroS))

/-- The scale as a column [N, 1]. -/
abbrev degColumn : FVec Ideal ⟨2, ![100000, 1]⟩ .f32 :=
  shapeCast ⟨2, ![100000, 1]⟩ (degScale dV hcol hsc hz1 dst) hcast1

/-- The zero table [N, C]. -/
abbrev zeroN : FVec Ideal ⟨2, ![100000, 128]⟩ .f32 := broadcastInDim ⟨2, ![100000, 128]⟩ ![] hzN zeroS

/-- A layer in the row-scaled form: the projected rows pre-scaled, gathered at the sources, added at the targets,
    post-scaled, plus the bias row, rectified. -/
abbrev kernelLayer {K : ℕ} (x : FVec Ideal ⟨2, ![100000, K]⟩ .f32) (w : FVec Ideal ⟨2, ![K, 128]⟩ .f32)
    (bias : FVec Ideal ⟨1, ![128]⟩ .f32) : FVec Ideal ⟨2, ![100000, 128]⟩ .f32 :=
  scaleBiasRelu (Host.scatterAdd dS (zeroN hzN) (col hcol dst)
      (Host.gather dG (scaledProduct x w (degColumn dV hcol hsc hz1 hcast1 dst)) (col hcol (wrap hsc src))))
    (degColumn dV hcol hsc hz1 hcast1 dst) (shapeCast ⟨2, ![1, 128]⟩ bias hcastb)

/-- A layer in the edge-weighted form: the projected rows gathered at the sources, weighted by the product of the two
    end nodes' scales, added at the targets, plus the bias spread over the rows, rectified. -/
abbrev hostLayer {K : ℕ} (dD : DotDims ⟨2, ![100000, K]⟩ ⟨2, ![K, 128]⟩ ⟨2, ![100000, 128]⟩)
    (x : FVec Ideal ⟨2, ![100000, K]⟩ .f32) (w : FVec Ideal ⟨2, ![K, 128]⟩ .f32) (bias : FVec Ideal ⟨1, ![128]⟩ .f32) :
    FVec Ideal ⟨2, ![100000, 128]⟩ .f32 :=
  maximumf (addf (Host.scatterAdd dS (zeroN hzN) (col hcol dst)
        (mulf (Host.gather dG (Host.dotGeneral dD none x w) (col hcol (wrap hsc src)))
          (broadcastInDim ⟨2, ![1700000, 128]⟩ ![0, 1] hspread (broadcastInDim ⟨2, ![1700000, 1]⟩ ![0] hcol
            (mulf (Host.gather dC (degScale dV hcol hsc hz1 dst) (col hcol (wrap hsc src)))
              (Host.gather dC (degScale dV hcol hsc hz1 dst) (col hcol (wrap hsc dst))))))))
      (broadcastInDim ⟨2, ![100000, 128]⟩ ![0, 1] hrows (broadcastInDim ⟨2, ![1, 128]⟩ ![1] hrow bias))) (zeroN hzN)

/-- The scale of a node is a non-negative real. -/
theorem degScale_nonneg_real
    (wfV : ScatterDims.WF ⟨1, ![100000]⟩ ⟨2, ![1700000, 1]⟩ ⟨1, ![1700000]⟩ [] [0] [0] 1)
    (hV : dV = vecScat 100000 1700000 wfV) (n : Fin 100000) :
    ∃ r : ℝ, 0 ≤ r ∧ degScale dV hcol hsc hz1 dst (ix1 n) = ((r : ℝ) : EReal) :=
  degreeScale_nonneg_real dV wfV hV (broadcastInDim ⟨1, ![100000]⟩ ![] hz1 zeroS)
    (broadcastInDim ⟨1, ![100000]⟩ ![] hz1 zeroS) (broadcastInDim ⟨1, ![100000]⟩ ![] hz1 (id zeroS))
    (spread_zero_apply hz1) (spread_zero_apply hz1) (spread_zero_apply hz1)
    (broadcastInDim ⟨1, ![1700000]⟩ ![] hsc oneS) (spread_one_apply hsc) (col hcol dst) n

/-- One layer: the row-scaled form and the edge-weighted form are one array. -/
theorem layer_host
    (wfS : ScatterDims.WF ⟨2, ![100000, 128]⟩ ⟨2, ![1700000, 1]⟩ ⟨2, ![1700000, 128]⟩ [1] [0] [0] 1)
    (hS : dS = rowScat 100000 1700000 128 wfS)
    (wfG : GatherDims.WF ⟨2, ![100000, 128]⟩ ⟨2, ![1700000, 1]⟩ ⟨2, ![1700000, 128]⟩ [1] [0] [] [0] [] 1 ![1, 128])
    (hG : dG = rowDims 100000 1700000 128 wfG)
    (wfC : GatherDims.WF ⟨1, ![100000]⟩ ⟨2, ![1700000, 1]⟩ ⟨1, ![1700000]⟩ [] [0] [] [0] [] 1 ![1])
    (hC : dC = colDims 100000 1700000 wfC)
    (wfV : ScatterDims.WF ⟨1, ![100000]⟩ ⟨2, ![1700000, 1]⟩ ⟨1, ![1700000]⟩ [] [0] [0] 1)
    (hV : dV = vecScat 100000 1700000 wfV)
    {K : ℕ} (dD : DotDims ⟨2, ![100000, K]⟩ ⟨2, ![K, 128]⟩ ⟨2, ![100000, 128]⟩) (hD : dD = DotDims.plain 100000 K 128)
    (x : FVec Ideal ⟨2, ![100000, K]⟩ .f32) (w : FVec Ideal ⟨2, ![K, 128]⟩ .f32) (bias : FVec Ideal ⟨1, ![128]⟩ .f32) :
    kernelLayer dS dG dV hcol hsc hz1 hzN hcast1 hcastb src dst x w bias
      = hostLayer dS dG dC dV hcol hspread hrow hrows hsc hz1 hzN src dst dD x w bias := by
  have hdot : Host.dotGeneral dD none x w = rowsByCols x w := dotGeneral_eq dD hD none .single x w
  exact layer_law dS wfS hS dG wfG hG dC wfC hC hcol hspread hrow hrows hsc
    (degScale dV hcol hsc hz1 dst) (degScale_nonneg_real dV hcol hsc hz1 dst wfV hV)
    (degColumn dV hcol hsc hz1 hcast1 dst)
    (fun n => Cert.Gcn.Lib.shapeCast_a_a1_apply (degScale dV hcol hsc hz1 dst) hcast1 n (0 : Fin 1))
    (scaledProduct x w (degColumn dV hcol hsc hz1 hcast1 dst)) (Host.dotGeneral dD none x w)
    (fun n f => by rw [hdot]; rfl)
    (zeroN hzN) (zeroN hzN) (spread_zero_apply hzN) (spread_zero_apply hzN) src dst bias
    (shapeCast ⟨2, ![1, 128]⟩ bias hcastb) (fun q => shapeCast_c_1c_apply bias hcastb q)

/-- The network: two layers, any pooling, the final linear map — in the two forms, one array. -/
theorem network_eq
    (wfS : ScatterDims.WF ⟨2, ![100000, 128]⟩ ⟨2, ![1700000, 1]⟩ ⟨2, ![1700000, 128]⟩ [1] [0] [0] 1)
    (hS : dS = rowScat 100000 1700000 128 wfS)
    (wfG : GatherDims.WF ⟨2, ![100000, 128]⟩ ⟨2, ![1700000, 1]⟩ ⟨2, ![1700000, 128]⟩ [1] [0] [] [0] [] 1 ![1, 128])
    (hG : dG = rowDims 100000 1700000 128 wfG)
    (wfC : GatherDims.WF ⟨1, ![100000]⟩ ⟨2, ![1700000, 1]⟩ ⟨1, ![1700000]⟩ [] [0] [] [0] [] 1 ![1])
    (hC : dC = colDims 100000 1700000 wfC)
    (wfV : ScatterDims.WF ⟨1, ![100000]⟩ ⟨2, ![1700000, 1]⟩ ⟨1, ![1700000]⟩ [] [0] [0] 1)
    (hV : dV = vecScat 100000 1700000 wfV)
    (dD1 : DotDims ⟨2, ![100000, 320]⟩ ⟨2, ![320, 128]⟩ ⟨2, ![100000, 128]⟩) (hD1 : dD1 = DotDims.plain 100000 320 128)
    (dD2 : DotDims ⟨2, ![100000, 128]⟩ ⟨2, ![128, 128]⟩ ⟨2, ![100000, 128]⟩) (hD2 : dD2 = DotDims.plain 100000 128 128)
    (dF : DotDims ⟨2, ![512, 128]⟩ ⟨2, ![128, 2]⟩ ⟨2, ![512, 2]⟩) (hF : dF = DotDims.plain 512 128 2)
    (hcastf : (⟨1, ![2]⟩ : Shape).ShapeCasts ⟨2, ![1, 2]⟩) (hrow2 : (⟨1, ![2]⟩ : Shape).BroadcastsInDim ⟨2, ![1, 2]⟩ ![1])
    (hrows2 : (⟨2, ![1, 2]⟩ : Shape).BroadcastsInDim ⟨2, ![512, 2]⟩ ![0, 1])
    (pool : FVec Ideal ⟨2, ![100000, 128]⟩ .f32 → FVec Ideal ⟨2, ![512, 128]⟩ .f32)
    (x0 : FVec Ideal ⟨2, ![100000, 320]⟩ .f32) (x3 : FVec Ideal ⟨2, ![320, 128]⟩ .f32) (x4 : FVec Ideal ⟨1, ![128]⟩ .f32)
    (x5 : FVec Ideal ⟨2, ![128, 128]⟩ .f32) (x6 : FVec Ideal ⟨1, ![128]⟩ .f32) (x7 : FVec Ideal ⟨2, ![128, 2]⟩ .f32)
    (x8 : FVec Ideal ⟨1, ![2]⟩ .f32) :
    productBias (pool (kernelLayer dS dG dV hcol hsc hz1 hzN hcast1 hcastb src dst
        (kernelLayer dS dG dV hcol hsc hz1 hzN hcast1 hcastb src dst x0 x3 x4) x5 x6)) x7 (shapeCast ⟨2, ![1, 2]⟩ x8 hcastf)
      = addf (Host.dotGeneral dF none (pool (hostLayer dS dG dC dV hcol hspread hrow hrows hsc hz1 hzN src dst dD2
          (hostLayer dS dG dC dV hcol hspread hrow hrows hsc hz1 hzN src dst dD1 x0 x3 x4) x5 x6)) x7)
          (broadcastInDim ⟨2, ![512, 2]⟩ ![0, 1] hrows2 (broadcastInDim ⟨2, ![1, 2]⟩ ![1] hrow2 x8)) := by
  have h1 := layer_host dS dG dC dV hcol hspread hrow hrows hsc hz1 hzN hcast1 hcastb src dst wfS hS wfG hG wfC hC wfV hV
    dD1 hD1 x0 x3 x4
  have h2 := layer_host dS dG dC dV hcol hspread hrow hrows hsc hz1 hzN hcast1 hcastb src dst wfS hS wfG hG wfC hC wfV hV
    dD2 hD2 (hostLayer dS dG dC dV hcol hspread hrow hrows hsc hz1 hzN src dst dD1 x0 x3 x4) x5 x6
  exact (fc_law dF hF hcastf hrow2 hrows2 _ x7 x8).trans
    (congrArg (fun t => addf (Host.dotGeneral dF none (pool t) x7)
        (broadcastInDim ⟨2, ![512, 2]⟩ ![0, 1] hrows2 (broadcastInDim ⟨2, ![1, 2]⟩ ![1] hrow2 x8)))
      ((congrArg (fun y => kernelLayer dS dG dV hcol hsc hz1 hzN hcast1 hcastb src dst y x5 x6) h1).trans h2))

end Layer

end Cert.GraphConv

end
-- ==== Proof.RefValue.lean ====
/-
  The reference network's result as one array function of its nine arguments.

  The reference's run states its result as one composed term of the arguments. Here that term is named in the
  vocabulary of the network law: the edge lists with the self loops appended (srcR, dstR: a row of the [2, E₀] edge
  array followed by 0 … N − 1), the mean pooling by graph (poolR: rows added by graph index, divided by the number of
  rows of the graph, at least 1), the two layers in the edge-weighted form and the final linear map (outR). Then the
  run's conclusion restated with outR, and the network law instantiated at the reference's own dimension records:
  the row-scaled form of the network equals outR.
-/
import proofs.«151348_j40664750358926_2_alg».proof.Proof.RefRun
import proofs.«151348_j40664750358926_2_alg».proof.Proof.NetworkLaw

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.GraphConv

/-- The source node of every edge: row 0 of the edge array, then the self loops 0 … N − 1. -/
abbrev srcR (x1 : (⟨S2x1600000, .i32⟩ : BufTy).Contents (Elt Ideal)) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The target node of every edge: row 1 of the edge array, then the self loops 0 … N − 1. -/
abbrev dstR (x1 : (⟨S2x1600000, .i32⟩ : BufTy).Contents (Elt Ideal)) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The mean of the node rows of each graph: the rows added by graph index, divided by max (the graph's node count, 1). -/
abbrev poolR (x2 : (⟨S100000, .i32⟩ : BufTy).Contents (Elt Ideal)) (h : FVec Ideal S100000x128 .f32) : FVec Ideal S512x128 .f32 :=
  Host.divf (Host.scatterAdd scatter_S512x128_S100000x1_S100000x128_1_0_0_1 (broadcastInDim S512x128 ![] bcast_S_S512x128 (constant S_ .f32 0x00000000#32)) (broadcastInDim S100000x1 ![0] bcast_S100000_S100000x1_0 x2) h) (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 x2) (broadcastInDim S100000 ![] bcast_S_S100000 (constant S_ .f32 0x3F800000#32))) (broadcastInDim S512 ![] bcast_S_S512 (constant S_ .f32 0x3F800000#32)))))

/-- The reference's result: two edge-weighted layers over the edge lists of x1, the pooling by x2, the final linear map. -/
abbrev outR (x0 : FVec Ideal S100000x320 .f32) (x1 : (⟨S2x1600000, .i32⟩ : BufTy).Contents (Elt Ideal))
    (x2 : (⟨S100000, .i32⟩ : BufTy).Contents (Elt Ideal)) (x3 : FVec Ideal S320x128 .f32) (x4 : FVec Ideal S128 .f32)
    (x5 : FVec Ideal S128x128 .f32) (x6 : FVec Ideal S128 .f32) (x7 : FVec Ideal S128x2 .f32) (x8 : FVec Ideal S2 .f32) :
    FVec Ideal S512x2 .f32 :=
  addf (Host.dotGeneral dot_S512x128_S128x2_S512x2_1_0_0_1_n_n none
      (poolR x2 (hostLayer scatter_S100000x128_S1700000x1_S1700000x128_1_0_0_1 gather_S100000x128_S1700000x1_S1700000x128_1_0_n_n_0_1_1128 gather_S100000_S1700000x1_S1700000_n_0_n_n_0_1_1 scatter_S100000_S1700000x1_S1700000_n_0_0_1 bcast_S1700000_S1700000x1_0 bcast_S1700000x1_S1700000x128_0_1 bcast_S128_S1x128_1 bcast_S1x128_S100000x128_0_1 bcast_S_S1700000 bcast_S_S100000 bcast_S_S100000x128 (srcR x1) (dstR x1) dot_S100000x128_S128x128_S100000x128_1_0_0_1_n_n
        (hostLayer scatter_S100000x128_S1700000x1_S1700000x128_1_0_0_1 gather_S100000x128_S1700000x1_S1700000x128_1_0_n_n_0_1_1128 gather_S100000_S1700000x1_S1700000_n_0_n_n_0_1_1 scatter_S100000_S1700000x1_S1700000_n_0_0_1 bcast_S1700000_S1700000x1_0 bcast_S1700000x1_S1700000x128_0_1 bcast_S128_S1x128_1 bcast_S1x128_S100000x128_0_1 bcast_S_S1700000 bcast_S_S100000 bcast_S_S100000x128 (srcR x1) (dstR x1) dot_S100000x320_S320x128_S100000x128_1_0_0_1_n_n x0 x3 x4) x5 x6)) x7)
    (broadcastInDim S512x2 ![0, 1] bcast_S1x2_S512x2_0_1 (broadcastInDim S1x2 ![1] bcast_S2_S1x2_1 x8))

set_option maxRecDepth 8192 in
/-- The run's composed term is outR of the nine argument arrays. -/
theorem res_eq (m : (ℓ : Loc nD τ sig) → Buf (Elt Ideal) ℓ) (c : Dev nD) :
    ValueP.res_main_v104 (F := Ideal) m c
      = outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold ValueP.res_main_v104
  rfl

/-- The reference's run with its result named: every weakly fair execution of @main ends with the result outR of the
    arguments and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104)
          = outR (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (res_eq m c), (h c).2⟩) (ValueP.run m ρ)

/-- The network in the row-scaled form, at the reference's dimension records and edge lists, is the reference's
    result. The three casts to a column or a row are not operations of the reference; any witnesses serve. -/
theorem out_eq (hcast1 : S100000.ShapeCasts S100000x1) (hcastb : S128.ShapeCasts S1x128) (hcastf : S2.ShapeCasts S1x2)
    (x0 : FVec Ideal S100000x320 .f32) (x1 : (⟨S2x1600000, .i32⟩ : BufTy).Contents (Elt Ideal))
    (x2 : (⟨S100000, .i32⟩ : BufTy).Contents (Elt Ideal)) (x3 : FVec Ideal S320x128 .f32) (x4 : FVec Ideal S128 .f32)
    (x5 : FVec Ideal S128x128 .f32) (x6 : FVec Ideal S128 .f32) (x7 : FVec Ideal S128x2 .f32) (x8 : FVec Ideal S2 .f32) :
    productBias (poolR x2 (kernelLayer scatter_S100000x128_S1700000x1_S1700000x128_1_0_0_1 gather_S100000x128_S1700000x1_S1700000x128_1_0_n_n_0_1_1128 scatter_S100000_S1700000x1_S1700000_n_0_0_1 bcast_S1700000_S1700000x1_0 bcast_S_S1700000 bcast_S_S100000 bcast_S_S100000x128 hcast1 hcastb (srcR x1) (dstR x1)
        (kernelLayer scatter_S100000x128_S1700000x1_S1700000x128_1_0_0_1 gather_S100000x128_S1700000x1_S1700000x128_1_0_n_n_0_1_1128 scatter_S100000_S1700000x1_S1700000_n_0_0_1 bcast_S1700000_S1700000x1_0 bcast_S_S1700000 bcast_S_S100000 bcast_S_S100000x128 hcast1 hcastb (srcR x1) (dstR x1) x0 x3 x4) x5 x6)) x7 (shapeCast S1x2 x8 hcastf)
      = outR x0 x1 x2 x3 x4 x5 x6 x7 x8 :=
  network_eq scatter_S100000x128_S1700000x1_S1700000x128_1_0_0_1 gather_S100000x128_S1700000x1_S1700000x128_1_0_n_n_0_1_1128 gather_S100000_S1700000x1_S1700000_n_0_n_n_0_1_1 scatter_S100000_S1700000x1_S1700000_n_0_0_1 bcast_S1700000_S1700000x1_0 bcast_S1700000x1_S1700000x128_0_1 bcast_S128_S1x128_1 bcast_S1x128_S100000x128_0_1 bcast_S_S1700000 bcast_S_S100000 bcast_S_S100000x128 hcast1 hcastb (srcR x1) (dstR x1)
    scatter_S100000x128_S1700000x1_S1700000x128_1_0_0_1_wf rfl
    gather_S100000x128_S1700000x1_S1700000x128_1_0_n_n_0_1_1128_wf rfl
    gather_S100000_S1700000x1_S1700000_n_0_n_n_0_1_1_wf rfl
    scatter_S100000_S1700000x1_S1700000_n_0_0_1_wf rfl
    dot_S100000x320_S320x128_S100000x128_1_0_0_1_n_n rfl dot_S100000x128_S128x128_S100000x128_1_0_0_1_n_n rfl
    dot_S512x128_S128x2_S512x2_1_0_0_1_n_n rfl hcastf bcast_S2_S1x2_1 bcast_S1x2_S512x2_0_1 (poolR x2) x0 x3 x4 x5 x6 x7 x8

end Cert.ReferenceIdeal.RefValue

end
-- ==== Proof.lean ====
/-
  A two-layer graph convolution network with mean pooling and a final linear map: the tiled kernel program against the
  plain reference, over the extended reals.

  Both programs compute, per layer, `relu (D^{-1/2} (A + I) D^{-1/2} (x W) + b)` for the graph's edge list with self
  loops, `D` the in-degree. The reference weights every edge's gathered row by `dinv[src] · dinv[dst]` before summing
  the rows into their destination nodes. The kernel scales row `n` of `x W` by `dinv[n]` inside its product region,
  sums the gathered rows unweighted, and scales row `d` of the sum by `dinv[d]` inside its bias-and-relu region. The two
  agree because `dinv[d]` is the same non-negative real number for every edge that lands on `d`, and a non-negative real
  factor distributes over a sum of extended reals; products of extended reals are associative. The degree is a count,
  so its inverse square root (or zero) is such a number whatever the inputs are. The pooling is the same host
  operations in both programs, and the final linear map is one matrix product and a bias row on both sides.

  The kernel program's run and its result as a function of the argument arrays: KernelRun, KernelValue (over the five
  regions' whole-array functions, BlockRows0 … BlockRows4). The reference's: RefRun, RefValue. The law: AggregationLaw,
  DegreeScale, NetworkLaw.
-/
import proofs.«151348_j40664750358926_2_alg».proof.Defs
import proofs.«151348_j40664750358926_2_alg».proof.Proof.Gen.Kernel
import proofs.«151348_j40664750358926_2_alg».proof.Proof.Gen.Kernel.Frame
import proofs.«151348_j40664750358926_2_alg».proof.Proof.Gen.KernelIdeal
import proofs.«151348_j40664750358926_2_alg».proof.Proof.Gen.KernelIdeal.Frame
import proofs.«151348_j40664750358926_2_alg».proof.Proof.Gen.ReferenceIdeal
import proofs.«151348_j40664750358926_2_alg».proof.Proof.Gen.Pre_finite_inputs
import proofs.«151348_j40664750358926_2_alg».proof.Proof.KernelValue
import proofs.«151348_j40664750358926_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result: the kernel's composed function of
    the argument arrays is the reference's (`RefValue.out_eq`: the network law at the reference's spelling of the host
    operations, which is the kernel's). -/
theorem algebraic : Cert.algebraic_KernelIdeal_ReferenceIdeal := by
  intro m ρ m' ρ' _ hagree
  refine ⟨fun c => Cert.KernelIdeal.RunValue.outK m c, Cert.KernelIdeal.RunValue.run_value m ρ, ?_⟩
  refine (θ_run Cert.ReferenceIdeal.defs _ _).mono (fun _ h c => ⟨(h c).1.trans ?_, (h c).2⟩)
    (Cert.ReferenceIdeal.RefValue.run_value m' ρ')
  obtain ⟨e0, e1, e2, e3, e4, e5, e6, e7, e8⟩ := hagree c
  rw [e0, e1, e2, e3, e4, e5, e6, e7, e8]
  exact (Cert.ReferenceIdeal.RefValue.out_eq Cert.KernelIdeal.Gen.shapeCasts_S100000_S100000x1 Cert.KernelIdeal.Gen.shapeCasts_S128_S1x128
    Cert.KernelIdeal.Gen.shapeCasts_S2_S1x2 _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
